-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x4096 : Shape := ⟨3, ![32, 512, 4096]⟩
abbrev S32x4096 : Shape := ⟨2, ![32, 4096]⟩
abbrev S512 : Shape := ⟨1, ![512]⟩
abbrev S_ : Shape := ⟨0, ![]⟩

class Facts : Prop where
  bcast_S_S32x512x4096 : S_.BroadcastsInDim S32x512x4096 (![] : Fin 0 → Fin S32x512x4096.rank)
  reducesTo_S32x512x4096_S_d0_1_2 : S32x512x4096.ReducesTo [0, 1, 2] S_
  h_S_ : 0 < S_.numel
  bcast_S_S512 : S_.BroadcastsInDim S512 (![] : Fin 0 → Fin S512.rank)
  reducesTo_S512_S_d0 : S512.ReducesTo [0] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_arg1 : IVec S32x4096 32) (main_v13 : IVec S_ 1) (main_v15 : IVec S32x4096 1) (main_c_5 : IVec S_ 32) : IVec S_ 1 :=
  let main_v16 : IVec S32x4096 32 := broadcastInDim S32x4096 ![] bcast_S_S32x4096 main_c_5
  let main_v17 : IVec S32x4096 1 := cmpi .eq main_arg1 main_v16
  let main_v18 : IVec S32x4096 1 := ori main_v15 main_v17
  let main_c_6 : IVec S_ 1 := constantI S_ 1 1#1
  let main_v19 : IVec S_ 1 := (fun x v => Host.reduce IntOp.andi x v reducesTo_S32x4096_S_d0_1 h_S_) main_v18 main_c_6
  let main_v20 : IVec S_ 1 := andi main_v13 main_v19
  main_v20

def fn {F : FTy → Type} [FloatOps F] (main_arg0 : FVec F S32x512x4096 .f32) (main_arg1 : IVec S32x4096 32) (main_arg2 : FVec F S512 .f32) (main_arg3 : FVec F S512 .f32) : IVec S_ 1 :=
  let main_v0 : FVec F S32x512x4096 .f32 := Host.absf main_arg0
  let main_cst : FVec F S_ .f32 := constant S_ .f32 0x7F800000#32
  let main_v1 : FVec F S32x512x4096 .f32 := broadcastInDim S32x512x4096 ![] bcast_S_S32x512x4096 main_cst
  let main_v2 : IVec S32x512x4096 1 := cmpf .olt main_v0 main_v1
  let main_c : IVec S_ 1 := constantI S_ 1 1#1
  let main_v3 : IVec S_ 1 := (fun x v => Host.reduce IntOp.andi x v reducesTo_S32x512x4096_S_d0_1_2 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S32x4096 32 := broadcastInDim S32x4096 ![] bcast_S_S32x4096 main_c_4
  let main_v15 : IVec S32x4096 1 := cmpi .eq main_arg1 main_v14
  let main_c_5 : IVec S_ 32 := constantI S_ 32 1#32
  fn_part1 (F := F) main_arg1 main_v13 main_v15 main_c_5
-- ==== Kernel.lean ====
abbrev S32x512x4096 : Shape := ⟨3, ![32, 512, 4096]⟩
abbrev S32x4096 : Shape := ⟨2, ![32, 4096]⟩
abbrev S512 : Shape := ⟨1, ![512]⟩
abbrev S1x512 : Shape := ⟨2, ![1, 512]⟩
abbrev S8x512x256 : Shape := ⟨3, ![8, 512, 256]⟩
abbrev S8x256 : Shape := ⟨2, ![8, 256]⟩
abbrev S8x1x256 : Shape := ⟨3, ![8, 1, 256]⟩
abbrev S8x512 : Shape := ⟨2, ![8, 512]⟩
abbrev S_ : Shape := ⟨0, ![]⟩
abbrev S1x512x1 : Shape := ⟨3, ![1, 512, 1]⟩

abbrev nBuf : Space → Nat
  | .hbm => 24
  | .vmem => 16
  | .smem => 0
  | _ => 0

abbrev bufTy : (tb : Table) → Fin (tcTables nBuf tb) → BufTy
  | .hbm, ⟨0, _⟩ => ⟨S32x512x4096, .f32⟩
  | .hbm, ⟨1, _⟩ => ⟨S32x4096, .i32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S1x512, .f32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S32x512x4096, .f32⟩
  | .local _ .vmem, ⟨0, _⟩ => ⟨S8x512x256, .f32⟩
  | .local _ .vmem, ⟨1, _⟩ => ⟨S8x512x256, .f32⟩
  | .local _ .vmem, ⟨2, _⟩ => ⟨S8x256, .i32⟩
  | .local _ .vmem, ⟨3, _⟩ => ⟨S8x256, .i32⟩
  | .local _ .vmem, ⟨4, _⟩ => ⟨S1x512, .f32⟩
  | .local _ .vmem, ⟨5, _⟩ => ⟨S1x512, .f32⟩
  | .local _ .vmem, ⟨6, _⟩ => ⟨S8x512x256, .f32⟩
  | .local _ .vmem, ⟨7, _⟩ => ⟨S8x512x256, .f32⟩
  | .local _ .vmem, ⟨8, _⟩ => ⟨S8x256, .i32⟩
  | .local _ .vmem, ⟨9, _⟩ => ⟨S8x256, .i32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S8x512x256, .f32⟩
  | .local _ .vmem, ⟨15, _⟩ => ⟨S8x512x256, .f32⟩
  | _, _ => ⟨S32x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S8x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x512_S1x512_0_0 : ∀ a, (![0, 0] : Fin 2 → Nat) a + S1x512.size a ≤ S1x512.size a
  h_S1x512 : 0 < S1x512.numel
  inb_S8x512x256_S8x512x256_0_0_0 : ∀ a, (![0, 0, 0] : Fin 3 → Nat) a + S8x512x256.size a ≤ S8x512x256.size a
  h_S8x512x256 : 0 < S8x512x256.numel
  inb_S8x256_S8x256_0_0 : ∀ a, (![0, 0] : Fin 2 → Nat) a + S8x256.size a ≤ S8x256.size a
  h_S8x256 : 0 < S8x256.numel
  shapeCasts_S8x256_S8x1x256 : S8x256.ShapeCasts S8x1x256
  shapeCasts_S8x1x256_S8x1x256 : S8x1x256.ShapeCasts S8x1x256
  broadcasts_S8x1x256_S8x512x256 : S8x1x256.Broadcasts S8x512x256
  reduces_S8x512x256_S8x512 : S8x512x256.Reduces [2] S8x512
  reduces_S8x512_S512 : S8x512.Reduces [0] S512
  shapeCasts_S1x512_S1x512 : S1x512.ShapeCasts S1x512
  shapeCasts_S512_S1x512 : S512.ShapeCasts S1x512
  reducesTo_S32x4096_S_d0_1 : S32x4096.ReducesTo [0, 1] S_
  h_S_ : 0 < S_.numel
  bcast_S_S1x512 : S_.BroadcastsInDim S1x512 (![] : Fin 0 → Fin S1x512.rank)
  shapeCasts_S1x512_S1x512x1 : S1x512.ShapeCasts S1x512x1
  broadcasts_S1x512x1_S8x512x256 : S1x512x1.Broadcasts S8x512x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S32x512x4096.size a
  hwx0_0 : ∀ i : grid0.Coords, EltTy.bits .f32 = 32 ∨ (Rect.block (s := S32x512x4096) S8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S32x4096.size a
  hwx0_1 : ∀ i : grid0.Coords, EltTy.bits .i32 = 32 ∨ (Rect.block (s := S32x4096) S8x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x256.size a ≤ S32x512x4096.size a
  hwx1_0 : ∀ i : grid1.Coords, EltTy.bits .f32 = 32 ∨ (Rect.block (s := S32x512x4096) S8x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S32x4096.size a
  hwx1_1 : ∀ i : grid1.Coords, EltTy.bits .i32 = 32 ∨ (Rect.block (s := S32x4096) S8x256.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x512x256.size a ≤ S32x512x4096.size a
  hwx1_6 : ∀ i : grid1.Coords, EltTy.bits .f32 = 32 ∨ (Rect.block (s := S32x512x4096) S8x512x256.size (cc1_transform_6 i) (hinb1_6 i)).WholeWords (EltTy.packing .f32)

variable [Facts₀]

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S8x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S8x512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x512x4096 : Shape := ⟨3, ![32, 512, 4096]⟩
abbrev S32x4096 : Shape := ⟨2, ![32, 4096]⟩
abbrev S512 : Shape := ⟨1, ![512]⟩
abbrev S32x1x4096 : Shape := ⟨3, ![32, 1, 4096]⟩
abbrev S_ : Shape := ⟨0, ![]⟩
abbrev S1x512x1 : Shape := ⟨3, ![1, 512, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x512x4096, .f32⟩
  | .hbm, ⟨1, _⟩ => ⟨S32x4096, .i32⟩
  | .hbm, ⟨2, _⟩ => ⟨S512, .f32⟩
  | .hbm, ⟨3, _⟩ => ⟨S512, .f32⟩
  | .hbm, ⟨4, _⟩ => ⟨S32x4096, .f32⟩
  | .hbm, ⟨5, _⟩ => ⟨S32x1x4096, .f32⟩
  | .hbm, ⟨6, _⟩ => ⟨S32x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x512x4096, .f32⟩
  | .hbm, ⟨12, _⟩ => ⟨S32x512x4096, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S1x512x1, .f32⟩
  | .hbm, ⟨18, _⟩ => ⟨S32x512x4096, .f32⟩
  | .hbm, ⟨19, _⟩ => ⟨S32x512x4096, .f32⟩
  | .hbm, ⟨20, _⟩ => ⟨S32x512x4096, .f32⟩
  | .hbm, ⟨21, _⟩ => ⟨S32x512x4096, .f32⟩
  | .hbm, ⟨22, _⟩ => ⟨S32x512x4096, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S1x512x1, .f32⟩
  | .hbm, ⟨32, _⟩ => ⟨S32x512x4096, .f32⟩
  | .hbm, ⟨33, _⟩ => ⟨S32x512x4096, .f32⟩
  | .hbm, ⟨34, _⟩ => ⟨S32x512x4096, .f32⟩
  | .hbm, ⟨35, _⟩ => ⟨S32x512x4096, .f32⟩
  | .hbm, ⟨36, _⟩ => ⟨S1x512x1, .f32⟩
  | .hbm, ⟨37, _⟩ => ⟨S32x512x4096, .f32⟩
  | .hbm, ⟨38, _⟩ => ⟨S32x512x4096, .f32⟩
  | .hbm, ⟨39, _⟩ => ⟨S1x512x1, .f32⟩
  | .hbm, ⟨40, _⟩ => ⟨S32x512x4096, .f32⟩
  | .hbm, ⟨41, _⟩ => ⟨S32x512x4096, .f32⟩
  | _, _ => ⟨S32x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S32x4096_S32x1x4096_0_2 : S32x4096.BroadcastsInDim S32x1x4096 (![0, 2] : Fin 2 → Fin S32x1x4096.rank)
  shapeCasts_S32x1x4096_S32x4096 : S32x1x4096.ShapeCasts S32x4096
  reducesTo_S32x4096_S_d0_1 : S32x4096.ReducesTo [0, 1] S_
  h_S_ : 0 < S_.numel
  bcast_S32x1x4096_S32x512x4096_0_1_2 : S32x1x4096.BroadcastsInDim S32x512x4096 (![0, 1, 2] : Fin 3 → Fin S32x512x4096.rank)
  reducesTo_S32x512x4096_S512_d0_2 : S32x512x4096.ReducesTo [0, 2] S512
  bcast_S_S512 : S_.BroadcastsInDim S512 (![] : Fin 0 → Fin S512.rank)
  bcast_S512_S1x512x1_1 : S512.BroadcastsInDim S1x512x1 (![1] : Fin 1 → Fin S1x512x1.rank)
  bcast_S1x512x1_S32x512x4096_0_1_2 : S1x512x1.BroadcastsInDim S32x512x4096 (![0, 1, 2] : Fin 3 → Fin S32x512x4096.rank)

variable [Facts₀]

class Facts : Prop extends Facts₀ where

variable [Facts]
-- ==== Proof.KernelRun.lean ====
/-
  The idealized kernel program's run with its result named.

  The program is two kernel regions with a stretch of host operations between them. Every weakly fair
  execution from a memory with zero counters terminates without a fault, and at the end every unscoped
  buffer holds what the fold through the three segments leaves in it: in particular the result array holds
  what the second region's write-backs leave, and the four argument arrays hold what they were launched with.
-/
import proofs.«172571_j30889404792984_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The result array at the last boundary is what the second region's write-backs leave of its output window. -/
theorem result_arr (c : Dev nD) :
    W3 m ρ c (Proc.devRef .tc main_v15) = (dat1 (V2 m ρ) c).arrAt 6 cfg1.N :=
  W3_arr m ρ c 6

end Cert.KernelIdeal.RunValue

end
-- ==== Proof.Spec.lean ====
/-
  Masked batch normalisation over a [32, 512, 4096] array, entry by entry on the extended reals.

  For every channel ch the positions (b, l) carry a mask word k(b, l), read as the signed integer it
  encodes. With  n = max(count, 1),  mean = (Σ x·k) / n  and a variance var, the result at (b, ch, l) is
      ((x − mean) · rsqrt(var + ε) · k) · w(ch) + β(ch).
  The two programs differ in the variance: one takes the second moment minus the squared mean,
      (Σ (x·k)·x) / n − mean²,
  the other the mean of the squared masked deviations,  (Σ ((x − mean)·k)²) / n.
  They also differ in the count: the sum of the mask words taken in 32-bit integer arithmetic and
  converted afterwards, against the sum of the converted words.
-/
import Idealize.ShloMosaic.PureOps.Ideal
import Idealize.ShloMosaic.Lib.ValueIdx

noncomputable section

open scoped BigOperators

namespace Cert.MaskedNorm

open Idealize.ShloMosaic Idealize.ShloMosaic.ValueIdx

/-- The data array's shape, the mask's and a per-channel vector's. -/
abbrev SX : Shape := ⟨3, ![32, 512, 4096]⟩
abbrev SM : Shape := ⟨2, ![32, 4096]⟩
abbrev SC : Shape := ⟨1, ![512]⟩

/-- The two float constants, kept as the words both programs print. -/
def one : EReal := Ideal.ofBits .f32 0x3F800000#32
def eps : EReal := Ideal.ofBits .f32 0x3727C5AC#32

/-- The mask word at (b, l) as the number it encodes. -/
def mnum (k : SM.Idx → BitVec 32) (b : Fin 32) (l : Fin 4096) : EReal :=
  (((k (ix2 b l)).toInt : ℝ) : EReal)

/-- The number of counted positions: the sum of the mask's numbers. -/
def count (k : SM.Idx → BitVec 32) : EReal := ∑ b : Fin 32, ∑ l : Fin 4096, mnum k b l

/-- Channel ch's masked sum Σ x·k and masked second moment Σ (x·k)·x. -/
def sumX (x : SX.Idx → EReal) (k : SM.Idx → BitVec 32) (ch : Fin 512) : EReal :=
  ∑ b : Fin 32, ∑ l : Fin 4096, x (ix3 b ch l) * mnum k b l
def sumXX (x : SX.Idx → EReal) (k : SM.Idx → BitVec 32) (ch : Fin 512) : EReal :=
  ∑ b : Fin 32, ∑ l : Fin 4096, (x (ix3 b ch l) * mnum k b l) * x (ix3 b ch l)

/-- One entry of the normalised array, from a mean, a reciprocal deviation, a scale and a shift per channel. -/
def normEntry (x : SX.Idx → EReal) (k : SM.Idx → BitVec 32) (mean inv w β : Fin 512 → EReal)
    (b : Fin 32) (ch : Fin 512) (l : Fin 4096) : EReal :=
  ((x (ix3 b ch l) - mean ch) * inv ch * mnum k b l) * w ch + β ch

/-! ### The second-moment form, from a count `cnt` computed elsewhere -/

def meanK (x : SX.Idx → EReal) (k : SM.Idx → BitVec 32) (cnt : EReal) (ch : Fin 512) : EReal :=
  Ideal.div (sumX x k ch) (max cnt one)
def varK (x : SX.Idx → EReal) (k : SM.Idx → BitVec 32) (cnt : EReal) (ch : Fin 512) : EReal :=
  Ideal.div (sumXX x k ch) (max cnt one) - meanK x k cnt ch * meanK x k cnt ch
def invK (x : SX.Idx → EReal) (k : SM.Idx → BitVec 32) (cnt : EReal) (ch : Fin 512) : EReal :=
  Ideal.rsqrt (varK x k cnt ch + eps)
def kerOut (x : SX.Idx → EReal) (k : SM.Idx → BitVec 32) (w β : SC.Idx → EReal) (cnt : EReal) : SX.Idx → EReal :=
  fun i => normEntry x k (meanK x k cnt) (invK x k cnt) (fun ch => w (ix1 ch)) (fun ch => β (ix1 ch)) (i 0) (i 1) (i 2)

/-! ### The squared-deviation form -/

def meanR (x : SX.Idx → EReal) (k : SM.Idx → BitVec 32) (ch : Fin 512) : EReal :=
  Ideal.div (sumX x k ch) (max (count k) one)
def devSq (x : SX.Idx → EReal) (k : SM.Idx → BitVec 32) (ch : Fin 512) : EReal :=
  ∑ b : Fin 32, ∑ l : Fin 4096,
    ((x (ix3 b ch l) - meanR x k ch) * mnum k b l) * ((x (ix3 b ch l) - meanR x k ch) * mnum k b l)
def varR (x : SX.Idx → EReal) (k : SM.Idx → BitVec 32) (ch : Fin 512) : EReal :=
  Ideal.div (devSq x k ch) (max (count k) one)
def invR (x : SX.Idx → EReal) (k : SM.Idx → BitVec 32) (ch : Fin 512) : EReal :=
  Ideal.rsqrt (varR x k ch + eps)
def refOut (x : SX.Idx → EReal) (k : SM.Idx → BitVec 32) (w β : SC.Idx → EReal) : SX.Idx → EReal :=
  fun i => normEntry x k (meanR x k) (invR x k) (fun ch => w (ix1 ch)) (fun ch => β (ix1 ch)) (i 0) (i 1) (i 2)

end Cert.MaskedNorm

end
-- ==== Proof.HostMid.lean ====
/-
  The host operations between the two kernel regions, read at a channel.

  From the first region's two arrays S1 (the masked sums) and S2 (the masked second moments), both [1, 512], and the
  mask, the host computes  n = max(float(Σ mask words, summed as 32-bit integers), 1),  mean = S1 / n,
  inv = rsqrt((S2 / n − mean·mean) + ε),  and recasts the scale and the shift from [512] to [1, 512]. The second region
  is entered with these four rows, the data array and the mask; here each is read at channel ch.
-/
import proofs.«172571_j30889404792984_2_alg».proof.Proof.Gen.KernelIdeal.Frame
import proofs.«172571_j30889404792984_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostMid

open Cert.KernelIdeal Cert.KernelIdeal.Gen Idealize.ShloMosaic Idealize.ShloMosaic.TcCoe Idealize.SL.Sem
open Idealize.ShloMosaic.StableHlo Idealize.ShloMosaic.ValueIdx Cert.MaskedNorm

/-- The count as this program takes it: the mask words summed in 32-bit integer arithmetic, the sum then read as a
    signed integer. -/
def cntW (k : IVec S32x4096 32) : EReal :=
  (((Host.reduce IntOp.addi k (constantI S_ 32 0#32) reducesTo_S32x4096_S_d0_1 h_S_ ix0).toInt : ℝ) : EReal)

/-- The broadcast scalar n = max(float(integer sum of the mask), 1), as a [1, 512] row. -/
def nRow (k : IVec S32x4096 32) : FVec Ideal S1x512 .f32 :=
  broadcastInDim S1x512 ![] bcast_S_S1x512
    (maximumf (sitofp (F := Ideal) .f32 (Host.reduce IntOp.addi k (constantI S_ 32 0#32) reducesTo_S32x4096_S_d0_1 h_S_))
      (constant (F := Ideal) S_ .f32 0x3F800000#32))

/-- The broadcast ε, as a [1, 512] row. -/
def epsRow : FVec Ideal S1x512 .f32 :=
  broadcastInDim S1x512 ![] bcast_S_S1x512 (constant (F := Ideal) S_ .f32 0x3727C5AC#32)

theorem nRow_apply (k : IVec S32x4096 32) (ch : Fin 512) : nRow k (ix2 (0 : Fin 1) ch) = max (cntW k) one :=
  broadcastInDim_apply _ bcast_S_S1x512 _ (ix2 (0 : Fin 1) ch) ix0 (fun a => a.elim0)

theorem epsRow_apply (ch : Fin 512) : epsRow (ix2 (0 : Fin 1) ch) = eps :=
  broadcastInDim_apply _ bcast_S_S1x512 _ (ix2 (0 : Fin 1) ch) ix0 (fun a => a.elim0)

/-- A [1, 512] row divided by n, at channel ch. -/
theorem div_count_apply (s : FVec Ideal S1x512 .f32) (k : IVec S32x4096 32) (ch : Fin 512) :
    Host.divf (F := Ideal) (φ := .f32) s (nRow k) (ix2 (0 : Fin 1) ch) = Ideal.div (s (ix2 (0 : Fin 1) ch)) (max (cntW k) one) :=
  congrArg (Ideal.div (s (ix2 (0 : Fin 1) ch))) (nRow_apply k ch)

/-- rsqrt((S2 / n − mean·mean) + ε) at channel ch. -/
theorem inv_apply (s2 mean : FVec Ideal S1x512 .f32) (k : IVec S32x4096 32) (ch : Fin 512) :
    Host.rsqrt (F := Ideal) (φ := .f32) (addf (subf (Host.divf (F := Ideal) (φ := .f32) s2 (nRow k)) (mulf mean mean)) epsRow) (ix2 (0 : Fin 1) ch)
      = Ideal.rsqrt ((Ideal.div (s2 (ix2 (0 : Fin 1) ch)) (max (cntW k) one)
          - mean (ix2 (0 : Fin 1) ch) * mean (ix2 (0 : Fin 1) ch)) + eps) :=
  congrArg Ideal.rsqrt (congrArg₂ (· + ·)
    (congrArg (· - mean (ix2 (0 : Fin 1) ch) * mean (ix2 (0 : Fin 1) ch)) (div_count_apply s2 k ch)) (epsRow_apply ch))

variable (m : (ℓ : Loc nD τ sig) → Buf (Elt Ideal) ℓ) (ρ : Dev nD → PrngReg) (c : Dev nD)

/-! ### The buffers the host stretch does not write -/

theorem mid_arg0 : W1 m ρ c (Proc.devRef .tc main_arg0) = V0 m ρ c main_arg0 :=
  (W1_arr m ρ c 0).trans (((dat0 (V0 m ρ) c).arrAt_in 0 rfl _).trans (A_eq0 (V0 m ρ) c 0))

theorem mid_arg1 : W1 m ρ c (Proc.devRef .tc main_arg1) = V0 m ρ c main_arg1 :=
  (W1_arr m ρ c 1).trans (((dat0 (V0 m ρ) c).arrAt_in 1 rfl _).trans (A_eq0 (V0 m ρ) c 1))

theorem entry_arg0 : V2 m ρ c main_arg0 = V0 m ρ c main_arg0 := by
  refine Eq.trans ?_ (mid_arg0 m ρ c)
  show StableHlo.after hostOps1 (W1 m ρ c) (Proc.devRef .tc main_arg0) = _
  after_results

theorem entry_arg1 : V2 m ρ c main_arg1 = V0 m ρ c main_arg1 := by
  refine Eq.trans ?_ (mid_arg1 m ρ c)
  show StableHlo.after hostOps1 (W1 m ρ c) (Proc.devRef .tc main_arg1) = _
  after_results

/-! ### The four rows, over the buffers as the first region leaves them -/

theorem entry_mean_raw : V2 m ρ c main_v5
    = Host.divf (F := Ideal) (φ := .f32) (s := S1x512) (W1 m ρ c (Proc.devRef .tc main_v0_0)) (nRow (W1 m ρ c (Proc.devRef .tc main_arg1))) := by
  show StableHlo.after hostOps1 (W1 m ρ c) (Proc.devRef .tc main_v5) = _
  after_results
  rfl

theorem entry_inv_raw : V2 m ρ c main_v12
    = Host.rsqrt (F := Ideal) (φ := .f32) (s := S1x512) (addf (subf
        (Host.divf (F := Ideal) (φ := .f32) (s := S1x512) (W1 m ρ c (Proc.devRef .tc main_v0_1)) (nRow (W1 m ρ c (Proc.devRef .tc main_arg1))))
        (mulf (Host.divf (F := Ideal) (φ := .f32) (s := S1x512) (W1 m ρ c (Proc.devRef .tc main_v0_0)) (nRow (W1 m ρ c (Proc.devRef .tc main_arg1))))
              (Host.divf (F := Ideal) (φ := .f32) (s := S1x512) (W1 m ρ c (Proc.devRef .tc main_v0_0)) (nRow (W1 m ρ c (Proc.devRef .tc main_arg1))))))
        epsRow) := by
  show StableHlo.after hostOps1 (W1 m ρ c) (Proc.devRef .tc main_v12) = _
  after_results
  rfl

theorem entry_scale_raw : V2 m ρ c main_v13
    = shapeCast S1x512 (W1 m ρ c (Proc.devRef .tc main_arg2)) shapeCasts_S512_S1x512 := by
  show StableHlo.after hostOps1 (W1 m ρ c) (Proc.devRef .tc main_v13) = _
  after_results
  rfl

theorem entry_shift_raw : V2 m ρ c main_v14
    = shapeCast S1x512 (W1 m ρ c (Proc.devRef .tc main_arg3)) shapeCasts_S512_S1x512 := by
  show StableHlo.after hostOps1 (W1 m ρ c) (Proc.devRef .tc main_v14) = _
  after_results
  rfl

/-! ### At a channel, in the specification's words -/

section AtChannel

variable (h2 : (dat0 (V0 m ρ) c).arrAt 2 cfg0.N = fun j => sumX (V0 m ρ c main_arg0) (V0 m ρ c main_arg1) (j 1))
variable (h3 : (dat0 (V0 m ρ) c).arrAt 3 cfg0.N = fun j => sumXX (V0 m ρ c main_arg0) (V0 m ρ c main_arg1) (j 1))

include h2 in
theorem mean_at (ch : Fin 512) :
    V2 m ρ c main_v5 (ix2 (0 : Fin 1) ch)
      = meanK (V0 m ρ c main_arg0) (V0 m ρ c main_arg1) (cntW (V0 m ρ c main_arg1)) ch := by
  rw [entry_mean_raw m ρ c, div_count_apply, mid_arg1 m ρ c, W1_arr m ρ c 2, h2]
  rfl

include h2 h3 in
theorem inv_at (ch : Fin 512) :
    V2 m ρ c main_v12 (ix2 (0 : Fin 1) ch)
      = invK (V0 m ρ c main_arg0) (V0 m ρ c main_arg1) (cntW (V0 m ρ c main_arg1)) ch := by
  rw [entry_inv_raw m ρ c, inv_apply, div_count_apply, mid_arg1 m ρ c, W1_arr m ρ c 2, W1_arr m ρ c 3, h2, h3]
  rfl

theorem scale_at (ch : Fin 512) : V2 m ρ c main_v13 (ix2 (0 : Fin 1) ch) = V0 m ρ c main_arg2 (ix1 ch) := by
  rw [entry_scale_raw m ρ c, W1_of_ne m ρ c main_arg2 (by decide)]
  exact shapeCast_a_1a_apply _ shapeCasts_S512_S1x512 (0 : Fin 1) ch

theorem shift_at (ch : Fin 512) : V2 m ρ c main_v14 (ix2 (0 : Fin 1) ch) = V0 m ρ c main_arg3 (ix1 ch) := by
  rw [entry_shift_raw m ρ c, W1_of_ne m ρ c main_arg3 (by decide)]
  exact shapeCast_a_1a_apply _ shapeCasts_S512_S1x512 (0 : Fin 1) ch

end AtChannel

end Cert.KernelIdeal.HostMid

end
-- ==== Proof.LibExtReal.lean ====
/- Extended reals that are real numbers are closed under the field operations (sum, difference,
   product, negation, maximum, finite sums, division by a nonzero real, reciprocal square root of a
   positive real), so an identity of real arithmetic transfers to the extended reals once every letter
   in it is known to be a real number. Also: the real numbers a few float constants denote. -/
import Idealize.ShloMosaic.PureOps.Ideal

noncomputable section

namespace Cert.LibExtReal

open Idealize.ShloMosaic

/-- An extended real is a real number: it is neither of the two infinities. -/
def IsReal (a : EReal) : Prop := ∃ r : ℝ, a = (r : EReal)

/-- A real number, read as an extended real, is a real number. -/
theorem IsReal.coe (r : ℝ) : IsReal (r : EReal) := ⟨r, rfl⟩

/-- Zero is a real number. -/
theorem IsReal.zero : IsReal (0 : EReal) := ⟨0, rfl⟩

/-- The sum of two real numbers is a real number. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- The difference of two real numbers is a real number. -/
theorem IsReal.sub {a b : EReal} (ha : IsReal a) (hb : IsReal b) : IsReal (a - b) := by
  obtain ⟨x, rfl⟩ := ha
  obtain ⟨y, rfl⟩ := hb
  exact ⟨x - y, (EReal.coe_sub x y).symm⟩

/-- The product of two real numbers is a real number. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The negative of a real number is a real number. -/
theorem IsReal.neg {a : EReal} (ha : IsReal a) : IsReal (-a) := by
  obtain ⟨x, rfl⟩ := ha
  exact ⟨-x, (EReal.coe_neg x).symm⟩

/-- The larger of two real numbers is a real number. -/
theorem IsReal.max {a b : EReal} (ha : IsReal a) (hb : IsReal b) : IsReal (max a b) := by
  rcases max_choice a b with h | h
  · rw [h]; exact ha
  · rw [h]; exact hb

/-- A finite sum of real numbers, taken in the extended reals, is their sum as real numbers. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih =>
    rw [Finset.sum_insert ha, Finset.sum_insert ha, ih, EReal.coe_add]

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

/-- Dividing a real number by a nonzero real number is division of real numbers. -/
theorem div_coe_coe (x y : ℝ) (hy : y ≠ 0) :
    Ideal.div (x : EReal) (y : EReal) = ((x / y : ℝ) : EReal) := by
  rw [Ideal.div_coe hy, ← EReal.coe_mul]
  congr 1
  rw [mul_one_div]

/-- A real number divided by a nonzero real number is a real number. -/
theorem IsReal.div_coe {a : EReal} (ha : IsReal a) {y : ℝ} (hy : y ≠ 0) :
    IsReal (Ideal.div a (y : EReal)) := by
  obtain ⟨x, rfl⟩ := ha
  exact ⟨x / y, div_coe_coe x y hy⟩

/-- The reciprocal square root of a positive real number is the reciprocal of its square root. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real number is a real number. -/
theorem IsReal.rsqrt_of_pos {a : EReal} (h : ∃ r : ℝ, 0 < r ∧ a = (r : EReal)) :
    IsReal (Ideal.rsqrt a) := by
  obtain ⟨r, hr, rfl⟩ := h
  exact ⟨(Real.sqrt r)⁻¹, rsqrt_coe_pos hr⟩

/-- The pattern of `+0.0` denotes zero. -/
theorem ofBits_zero : Ideal.ofBits .f32 0x00000000#32 = (0 : EReal) := by
  simp [Ideal.ofBits, Ideal.ieee]

/-- The pattern of `1.0` denotes the real number one. -/
theorem ofBits_one : Ideal.ofBits .f32 0x3F800000#32 = ((1 : ℝ) : EReal) := by
  simp [Ideal.ofBits, Ideal.ieee, -EReal.coe_mul]; norm_num

/-- The pattern of `262144.0` (two to the eighteenth) denotes the real number 262144. -/
theorem ofBits_n : Ideal.ofBits .f32 0x48800000#32 = ((262144 : ℝ) : EReal) := by
  simp [Ideal.ofBits, Ideal.ieee, -EReal.coe_mul]; norm_num

/-- The pattern of the single-precision number nearest to one hundred-thousandth denotes a positive
    real number (its exact value is not needed). -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- The larger of a nonnegative real number and zero is that number. -/
theorem max_eq_left_of_nonneg_coe {v : ℝ} (hv : 0 ≤ v) :
    max ((v : ℝ) : EReal) (0 : EReal) = ((v : ℝ) : EReal) := by
  apply max_eq_left
  exact_mod_cast hv

/-- The regrouping of an affine map: with every letter a real number,
    x·(I·Γ) + (((B + Zt) − Zb) − (M·I)·Γ) = (((x − M)·I)·Γ + B) + (Zt − Zb). -/
theorem affine_regroup {x M I Γ B Zt Zb : EReal} (hx : IsReal x) (hM : IsReal M) (hI : IsReal I)
    (hΓ : IsReal Γ) (hB : IsReal B) (hZt : IsReal Zt) (hZb : IsReal Zb) :
    x * (I * Γ) + (((B + Zt) - Zb) - (M * I) * Γ) = (((x - M) * I) * Γ + B) + (Zt - Zb) := by
  obtain ⟨x, rfl⟩ := hx
  obtain ⟨M, rfl⟩ := hM
  obtain ⟨I, rfl⟩ := hI
  obtain ⟨Γ, rfl⟩ := hΓ
  obtain ⟨B, rfl⟩ := hB
  obtain ⟨Zt, rfl⟩ := hZt
  obtain ⟨Zb, rfl⟩ := hZb
  simp only [← EReal.coe_mul, ← EReal.coe_add, ← EReal.coe_sub]
  congr 1
  ring

end Cert.LibExtReal

end
-- ==== Proof.Moments.lean ====
/-
  The two variances of a masked batch agree.

  For one channel, write x(i) for the data and m(i) for the mask number at position i; every m(i) is
  0 or 1, so m(i)·m(i) = m(i). With c = Σ m, n = max(c, 1), S1 = Σ x·m, S2 = Σ (x·m)·x and μ = S1/n,
      Σ ((x − μ)·m)² = Σ m·(x − μ)² = S2 − 2μ·S1 + μ²·c.
  If some m(i) is 1 then c ≥ 1, so n = c and S1 = μ·c; the sum is S2 − μ²·c and dividing by c gives
  S2/c − μ². Otherwise every m(i) is 0, so S1 = S2 = c = 0 and both variances are 0.
  The identity is one of real numbers: the data are real by hypothesis, the mask numbers are integers,
  and the divisor n is a real number that is at least one, so the extended-real division by it is
  real division. The scale and the shift of the normalisation take no part in it.
-/
import proofs.«172571_j30889404792984_2_alg».proof.Proof.Spec
import proofs.«172571_j30889404792984_2_alg».proof.Proof.LibExtReal

noncomputable section

open scoped BigOperators

namespace Cert.MaskedNorm

open Idealize.ShloMosaic Idealize.ShloMosaic.ValueIdx Cert.LibExtReal

/-! ### The identity over the real numbers -/

/-- A weight that is 0 or 1 is its own square. -/
theorem weight_sq {m : ℝ} (h : m = 0 ∨ m = 1) : m * m = m := by
  rcases h with h | h <;> rw [h] <;> norm_num

/-- The sum of the squared weighted deviations from any centre μ, expanded:
    Σ ((x − μ)·m)² = Σ (x·m)·x − 2μ·Σ x·m + μ²·Σ m  when every weight is 0 or 1. -/
theorem sum_sq_dev {ι : Type*} [Fintype ι] (x m : ι → ℝ) (hm : ∀ i, m i = 0 ∨ m i = 1) (μ : ℝ) :
    (∑ i, ((x i - μ) * m i) * ((x i - μ) * m i))
      = (∑ i, (x i * m i) * x i) - 2 * μ * (∑ i, x i * m i) + μ * μ * (∑ i, m i) := by
  have hexp : ∀ i, ((x i - μ) * m i) * ((x i - μ) * m i)
      = (x i * m i) * x i - 2 * μ * (x i * m i) + μ * μ * m i := by
    intro i
    calc ((x i - μ) * m i) * ((x i - μ) * m i)
        = (x i - μ) * (x i - μ) * (m i * m i) := by ring
      _ = (x i - μ) * (x i - μ) * m i := by rw [weight_sq (hm i)]
      _ = (x i * m i) * x i - 2 * μ * (x i * m i) + μ * μ * m i := by ring
  rw [Finset.sum_congr rfl (fun i _ => hexp i), Finset.sum_add_distrib, Finset.sum_sub_distrib,
    ← Finset.mul_sum, ← Finset.mul_sum]

/-- The mean of the squared weighted deviations from the weighted mean is the weighted second moment
    minus the squared weighted mean, the divisor being max(Σ m, 1), for weights that are 0 or 1. -/
theorem masked_variance_real {ι : Type*} [Fintype ι] (x m : ι → ℝ) (hm : ∀ i, m i = 0 ∨ m i = 1) :
    (∑ i, ((x i - (∑ j, x j * m j) / max (∑ j, m j) 1) * m i) *
          ((x i - (∑ j, x j * m j) / max (∑ j, m j) 1) * m i)) / max (∑ j, m j) 1
      = (∑ i, (x i * m i) * x i) / max (∑ j, m j) 1
        - ((∑ j, x j * m j) / max (∑ j, m j) 1) * ((∑ j, x j * m j) / max (∑ j, m j) 1) := by
  rw [sum_sq_dev x m hm]
  by_cases h : ∃ i, m i = 1
  · obtain ⟨i0, hi0⟩ := h
    have hnn : ∀ i, 0 ≤ m i := fun i => by rcases hm i with h | h <;> rw [h] <;> norm_num
    have hc : (1 : ℝ) ≤ ∑ j, m j :=
      calc (1 : ℝ) = m i0 := hi0.symm
        _ ≤ ∑ j, m j := Finset.single_le_sum (fun i _ => hnn i) (Finset.mem_univ i0)
    rw [max_eq_left hc]
    generalize (∑ j, m j) = c at hc
    generalize (∑ j, x j * m j) = S1
    generalize (∑ i, (x i * m i) * x i) = S2
    have hc0 : c ≠ 0 := by linarith
    field_simp
    ring
  · have hz : ∀ i, m i = 0 := fun i => (hm i).resolve_right (fun h1 => h ⟨i, h1⟩)
    simp [hz]

/-! ### The same identity for the extended-real sums of one channel -/

/-- The larger of two real numbers is the same taken in the extended reals. -/
theorem max_coe_coe (a b : ℝ) : max (a : EReal) (b : EReal) = ((max a b : ℝ) : EReal) :=
  (EReal.coe_strictMono.monotone.map_max).symm

/-- A mask word that is the word 0 or the word 1 encodes the real number 0 or 1. -/
theorem mask_real (k : SM.Idx → BitVec 32) (hk : ∀ j, k j = 0#32 ∨ k j = 1#32)
    (b : Fin 32) (l : Fin 4096) :
    ((k (ix2 b l)).toInt : ℝ) = 0 ∨ ((k (ix2 b l)).toInt : ℝ) = 1 := by
  rcases hk (ix2 b l) with h | h
  · left
    have h0 : (0#32 : BitVec 32).toInt = 0 := by decide
    rw [h, h0, Int.cast_zero]
  · right
    have h1 : (1#32 : BitVec 32).toInt = 1 := by decide
    rw [h, h1, Int.cast_one]

/-- Per channel, the second moment minus the squared mean is the mean of the squared masked
    deviations, when the data are real numbers, the mask words are 0 or 1 and the count is the sum of
    the mask's numbers. -/
theorem varK_eq_varR (x : SX.Idx → EReal) (k : SM.Idx → BitVec 32)
    (hx : ∀ i, ∃ r : ℝ, x i = (r : EReal)) (hk : ∀ j, k j = 0#32 ∨ k j = 1#32) (ch : Fin 512) :
    varK x k (count k) ch = varR x k ch := by
  choose r hr using hx
  -- every sum is the extended-real reading of a sum of real numbers
  have hcount : count k
      = ((∑ b : Fin 32, ∑ l : Fin 4096, ((k (ix2 b l)).toInt : ℝ) : ℝ) : EReal) := by
    unfold count mnum
    simp only [coe_sum]
  have hn : max (count k) one
      = ((max (∑ b : Fin 32, ∑ l : Fin 4096, ((k (ix2 b l)).toInt : ℝ)) 1 : ℝ) : EReal) := by
    rw [hcount, one, ofBits_one, max_coe_coe]
  have hn0 : max (∑ b : Fin 32, ∑ l : Fin 4096, ((k (ix2 b l)).toInt : ℝ)) (1 : ℝ) ≠ 0 := by
    have h1 : (1 : ℝ) ≤ max (∑ b : Fin 32, ∑ l : Fin 4096, ((k (ix2 b l)).toInt : ℝ)) 1 :=
      le_max_right _ _
    linarith
  have hS1 : sumX x k ch
      = ((∑ b : Fin 32, ∑ l : Fin 4096, r (ix3 b ch l) * ((k (ix2 b l)).toInt : ℝ) : ℝ) : EReal) := by
    unfold sumX mnum
    simp only [hr, ← EReal.coe_mul, coe_sum]
  have hS2 : sumXX x k ch
      = ((∑ b : Fin 32, ∑ l : Fin 4096,
            (r (ix3 b ch l) * ((k (ix2 b l)).toInt : ℝ)) * r (ix3 b ch l) : ℝ) : EReal) := by
    unfold sumXX mnum
    simp only [hr, ← EReal.coe_mul, coe_sum]
  have hmean : meanR x k ch
      = (((∑ b : Fin 32, ∑ l : Fin 4096, r (ix3 b ch l) * ((k (ix2 b l)).toInt : ℝ))
            / max (∑ b : Fin 32, ∑ l : Fin 4096, ((k (ix2 b l)).toInt : ℝ)) 1 : ℝ) : EReal) := by
    unfold meanR
    rw [hS1, hn, div_coe_coe _ _ hn0]
  have hdev : devSq x k ch
      = ((∑ b : Fin 32, ∑ l : Fin 4096,
            ((r (ix3 b ch l)
                - (∑ b : Fin 32, ∑ l : Fin 4096, r (ix3 b ch l) * ((k (ix2 b l)).toInt : ℝ))
                  / max (∑ b : Fin 32, ∑ l : Fin 4096, ((k (ix2 b l)).toInt : ℝ)) 1)
              * ((k (ix2 b l)).toInt : ℝ))
            * ((r (ix3 b ch l)
                - (∑ b : Fin 32, ∑ l : Fin 4096, r (ix3 b ch l) * ((k (ix2 b l)).toInt : ℝ))
                  / max (∑ b : Fin 32, ∑ l : Fin 4096, ((k (ix2 b l)).toInt : ℝ)) 1)
              * ((k (ix2 b l)).toInt : ℝ)) : ℝ) : EReal) := by
    unfold devSq mnum
    simp only [hmean, hr, ← EReal.coe_sub, ← EReal.coe_mul, coe_sum]
  -- the identity of real numbers, over the positions (b, l) taken as one index
  have hreal := masked_variance_real
    (fun p : Fin 32 × Fin 4096 => r (ix3 p.1 ch p.2))
    (fun p : Fin 32 × Fin 4096 => ((k (ix2 p.1 p.2)).toInt : ℝ))
    (fun p => mask_real k hk p.1 p.2)
  simp only [Fintype.sum_prod_type] at hreal
  unfold varK varR meanK
  rw [hdev, hS2, hS1, hn]
  simp only [div_coe_coe _ _ hn0, ← EReal.coe_mul, ← EReal.coe_sub]
  exact congrArg (fun t : ℝ => (t : EReal)) hreal.symm

/-! ### The two normalised arrays -/

/-- With the count taken as the sum of the mask's numbers, the second-moment form and the
    squared-deviation form of the masked normalisation are the same array, whatever the scale and the
    shift are. -/
theorem kerOut_eq_refOut (x : SX.Idx → EReal) (k : SM.Idx → BitVec 32) (w β : SC.Idx → EReal)
    (hx : ∀ i, ∃ r : ℝ, x i = (r : EReal)) (hk : ∀ j, k j = 0#32 ∨ k j = 1#32) :
    kerOut x k w β (count k) = refOut x k w β := by
  have hmean : meanK x k (count k) = meanR x k := by
    funext ch
    unfold meanK meanR
    rfl
  have hinv : invK x k (count k) = invR x k := by
    funext ch
    unfold invK invR
    rw [varK_eq_varR x k hx hk ch]
  unfold kerOut refOut
  rw [hmean, hinv]

end Cert.MaskedNorm

end
-- ==== Proof.KernelValue.lean ====
/-
  The idealized kernel program's result array, as the specification's function of the four launch arrays.

  The second region writes, at (b, ch, l), the entry ((x − mean)·inv·k)·w + β of the rows it is entered with; the host
  stretch before it makes those rows the second-moment form's mean and reciprocal deviation of the first region's two
  sums, over the count taken in integer arithmetic; for a mask of zeros and ones that count is the sum of the mask's
  numbers, and for real data the second-moment form is the squared-deviation form.
-/
import proofs.«172571_j30889404792984_2_alg».proof.Proof.KernelRun
import proofs.«172571_j30889404792984_2_alg».proof.Proof.HostMid
import proofs.«172571_j30889404792984_2_alg».proof.Proof.Moments

noncomputable section

namespace Cert.KernelIdeal.KernelValue

open Cert.KernelIdeal Cert.KernelIdeal.Gen Idealize.ShloMosaic Idealize.ShloMosaic.TcCoe Idealize.SL.Sem
open Idealize.ShloMosaic.ValueIdx Cert.MaskedNorm Cert.KernelIdeal.HostMid

variable (m : (ℓ : Loc nD τ sig) → Buf (Elt Ideal) ℓ) (ρ : Dev nD → PrngReg) (c : Dev nD)

/-- From the two regions' values, the data real and the mask of zeros and ones: the result array is `refOut`. -/
theorem result_eq
    (h2 : (dat0 (V0 m ρ) c).arrAt 2 cfg0.N = fun j => sumX (V0 m ρ c main_arg0) (V0 m ρ c main_arg1) (j 1))
    (h3 : (dat0 (V0 m ρ) c).arrAt 3 cfg0.N = fun j => sumXX (V0 m ρ c main_arg0) (V0 m ρ c main_arg1) (j 1))
    (h6 : (dat1 (V2 m ρ) c).arrAt 6 cfg1.N = fun i =>
        normEntry (V2 m ρ c main_arg0) (V2 m ρ c main_arg1)
          (fun ch => V2 m ρ c main_v5 (ix2 (0 : Fin 1) ch)) (fun ch => V2 m ρ c main_v12 (ix2 (0 : Fin 1) ch))
          (fun ch => V2 m ρ c main_v13 (ix2 (0 : Fin 1) ch)) (fun ch => V2 m ρ c main_v14 (ix2 (0 : Fin 1) ch)) (i 0) (i 1) (i 2))
    (hx : ∀ i, ∃ r : ℝ, V0 m ρ c main_arg0 i = (r : EReal))
    (hk : ∀ j, V0 m ρ c main_arg1 j = 0#32 ∨ V0 m ρ c main_arg1 j = 1#32)
    (hcnt : cntW (V0 m ρ c main_arg1) = count (V0 m ρ c main_arg1)) :
    W3 m ρ c (Proc.devRef .tc main_v15)
      = refOut (V0 m ρ c main_arg0) (V0 m ρ c main_arg1) (V0 m ρ c main_arg2) (V0 m ρ c main_arg3) := by
  have hmean : (fun ch => V2 m ρ c main_v5 (ix2 (0 : Fin 1) ch))
      = meanK (V0 m ρ c main_arg0) (V0 m ρ c main_arg1) (cntW (V0 m ρ c main_arg1)) := funext (mean_at m ρ c h2)
  have hinv : (fun ch => V2 m ρ c main_v12 (ix2 (0 : Fin 1) ch))
      = invK (V0 m ρ c main_arg0) (V0 m ρ c main_arg1) (cntW (V0 m ρ c main_arg1)) := funext (inv_at m ρ c h2 h3)
  have hw : (fun ch => V2 m ρ c main_v13 (ix2 (0 : Fin 1) ch)) = fun ch => V0 m ρ c main_arg2 (ix1 ch) :=
    funext (scale_at m ρ c)
  have hβ : (fun ch => V2 m ρ c main_v14 (ix2 (0 : Fin 1) ch)) = fun ch => V0 m ρ c main_arg3 (ix1 ch) :=
    funext (shift_at m ρ c)
  rw [RunValue.result_arr m ρ c, h6, hmean, hinv, hw, hβ, entry_arg0 m ρ c, entry_arg1 m ρ c, hcnt]
  exact kerOut_eq_refOut _ _ _ _ hx hk

end Cert.KernelIdeal.KernelValue

end
-- ==== Proof.LibSumOuterInner.lean ====
/-
  A float sum over the outer and the inner axis of a rank-3 array, read one middle coordinate at a time.

  For extents A, C, B, the host's sum of an [A, C, B] array of extended reals over its axes 0 and 2 is a
  vector of length C. Its entry at the middle coordinate c is the initial value plus the double sum, over
  the outer coordinate a and the inner coordinate b, of the array's entries at (a, c, b):

      hostReduceAdd x init (c) = init + Σ a, Σ b, x (a, c, b).

  On the way: a rank-3 index set is the product of its three coordinate ranges (`idxEquiv3`), so a sum over
  it is the triple sum over the coordinates (`sum_idx3`); and dropping the axes 0 and 2 of the index
  (a, c, b) leaves the index (c) (`drop_ix3`).
-/
import Idealize.ShloMosaic.PureOps.Ideal.Laws
import Idealize.ShloMosaic.Lib.ValueIdx

noncomputable section

open scoped BigOperators

namespace Cert.LibSumOuterInner

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ c : Fin n1, ∑ b : Fin n2, f (ix3 a c b) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the axes 0 and 2 of the index (a, c, b) leaves the index (c). -/
theorem drop_ix3 {A C B : Nat} (h' : (⟨3, ![A, C, B]⟩ : Shape).ReducesTo [0, 2] ⟨1, ![C]⟩)
    (a : Fin A) (c : Fin C) (b : Fin B) : h'.drop (ix3 a c b) = ix1 c := by
  funext d
  match d with
  | ⟨0, _⟩ => exact Fin.ext rfl

/-- The sum over the axes 0 and 2, read at the middle coordinate `c`: the initial value plus the double sum over
    the outer and the inner coordinate of the entries at (a, c, b). -/
theorem hostReduceAdd_outer_inner {A C B : Nat} (h' : (⟨3, ![A, C, B]⟩ : Shape).ReducesTo [0, 2] ⟨1, ![C]⟩)
    (x : (⟨3, ![A, C, B]⟩ : Shape).Idx → EReal) (init : EReal) (c : Fin C) :
    Ideal.hostReduceAdd h' x init (ix1 c) = init + ∑ a : Fin A, ∑ b : Fin B, x (ix3 a c b) := by
  unfold Ideal.hostReduceAdd
  refine congrArg (init + ·) ?_
  rw [Finset.sum_filter, sum_idx3]
  refine Finset.sum_congr rfl fun a _ => ?_
  -- for a fixed outer coordinate, only the middle coordinate `c` survives the filter
  have key : ∀ c' : Fin C, (∑ b : Fin B, if h'.drop (ix3 a c' b) = ix1 c then x (ix3 a c' b) else 0)
      = if c' = c then ∑ b : Fin B, x (ix3 a c' b) else 0 := by
    intro c'
    by_cases hc : c' = c
    · rw [if_pos hc]
      refine Finset.sum_congr rfl fun b _ => ?_
      rw [if_pos (by rw [drop_ix3, hc])]
    · rw [if_neg hc]
      refine Finset.sum_eq_zero fun b _ => ?_
      rw [if_neg]
      intro h
      rw [drop_ix3] at h
      exact hc (congrFun h ⟨0, Nat.one_pos⟩)
  rw [Finset.sum_congr rfl fun c' _ => key c', Finset.sum_ite_eq' Finset.univ c, if_pos (Finset.mem_univ _)]

end Cert.LibSumOuterInner

end
-- ==== Proof.RefStages.lean ====
/-
  The reference's computation read one stage at a time, and its result identified with the
  squared-deviation form of the masked normalisation.

  The reference converts the mask to numbers, counts them, clamps the count below by one, and then, per
  channel: divides the masked sum by the clamped count (the mean), divides the sum of the squared masked
  deviations from that mean by the clamped count (the variance), and takes the reciprocal square root of the
  variance plus a small constant. Each entry is the deviation from the channel's mean, times the channel's
  reciprocal deviation, times the mask's number, times the channel's scale, plus the channel's shift.
  Each stage below is read at an index given by its coordinates; the two sums over the batch and the position
  axis are read by the general outer-and-inner-sum lemma, the count by the double sum over a rank-2 index set.
-/
import proofs.«172571_j30889404792984_2_alg».proof.Defs
import proofs.«172571_j30889404792984_2_alg».proof.Proof.Gen.ReferenceIdeal.Run
import proofs.«172571_j30889404792984_2_alg».proof.Proof.Gen.ReferenceIdeal.Read
import proofs.«172571_j30889404792984_2_alg».proof.Proof.Spec
import proofs.«172571_j30889404792984_2_alg».proof.Proof.LibSumOuterInner
import Idealize.ShloMosaic.Lib.ValueIdx
import Idealize.ShloMosaic.PureOps.Ideal.Laws

noncomputable section

open scoped BigOperators

namespace Cert.RefStages

open Cert.ReferenceIdeal Cert.ReferenceIdeal.Read Cert.MaskedNorm Cert.LibSumOuterInner
open Idealize.ShloMosaic Idealize.ShloMosaic.TcCoe Idealize.SL.Sem Idealize.ShloMosaic.StableHlo Idealize.ShloMosaic.ValueIdx

variable (x0 : (⟨S32x512x4096, .f32⟩ : BufTy).Contents (Elt Ideal)) (x1 : (⟨S32x4096, .i32⟩ : BufTy).Contents (Elt Ideal))

/-! ### The mask as numbers -/

/-- The converted mask with its unit middle axis, at (b, 0, l): the number the mask word at (b, l) encodes. -/
theorem mask_unit_at (b : Fin 32) (l : Fin 4096) :
    val_main_v1 (F := Ideal) x1 (ix3 b (0 : Fin 1) l) = mnum x1 b l := by
  have e : idx_main_v1 (ix3 b (0 : Fin 1) l) = ix2 b l :=
    funext fun a => Fin.ext (by match a with | ⟨0, _⟩ => rfl | ⟨1, _⟩ => rfl)
  rw [val_main_v1_apply, val_main_v0_apply, e]
  rfl

/-- Broadcast along the channels, the mask at (b, ch, l) is the number at (b, l): the three broadcasts of the
    program are one function. -/
theorem mask_bcast_idx (b : Fin 32) (ch : Fin 512) (l : Fin 4096) :
    idx_main_v5 (ix3 b ch l) = ix3 b (0 : Fin 1) l :=
  funext fun a => Fin.ext (by match a with | ⟨0, _⟩ => rfl | ⟨1, _⟩ => rfl | ⟨2, _⟩ => rfl)

theorem mask5_at (b : Fin 32) (ch : Fin 512) (l : Fin 4096) :
    val_main_v5 (F := Ideal) x1 (ix3 b ch l) = mnum x1 b l := by
  rw [val_main_v5_apply, mask_bcast_idx, mask_unit_at]
theorem mask13_at (b : Fin 32) (ch : Fin 512) (l : Fin 4096) :
    val_main_v13 (F := Ideal) x1 (ix3 b ch l) = mnum x1 b l := by
  rw [val_main_v13_apply, show idx_main_v13 (ix3 b ch l) = ix3 b (0 : Fin 1) l from mask_bcast_idx b ch l, mask_unit_at]
theorem mask25_at (b : Fin 32) (ch : Fin 512) (l : Fin 4096) :
    val_main_v25 (F := Ideal) x1 (ix3 b ch l) = mnum x1 b l := by
  rw [val_main_v25_apply, show idx_main_v25 (ix3 b ch l) = ix3 b (0 : Fin 1) l from mask_bcast_idx b ch l, mask_unit_at]

/-- With the unit axis removed again, the converted mask at (b, l) is the number at (b, l): row-major position
    b·4096 + l has quotient b and remainder l. -/
theorem mask2_at (b : Fin 32) (l : Fin 4096) :
    val_main_v2 (F := Ideal) x1 (ix2 b l) = mnum x1 b l := by
  have e : idx_main_v2 (ix2 b l) = ix3 b (0 : Fin 1) l :=
    funext fun a => Fin.ext (by
      have hb : b.val < 32 := b.isLt
      have hl : l.val < 4096 := l.isLt
      match a with
      | ⟨0, _⟩ => show (b.val * 4096 + l.val) / 4096 = b.val; omega
      | ⟨1, _⟩ => rfl
      | ⟨2, _⟩ => show (b.val * 4096 + l.val) % 4096 = l.val; omega)
  rw [val_main_v2_apply, e, mask_unit_at]

/-! ### The count and its clamp -/

/-- The total sum of the converted mask is the count. -/
theorem count_at (i : S_.Idx) : val_main_v3 (F := Ideal) x1 i = count x1 := by
  rw [val_main_v3_apply, val_main_cst_apply, sum_idx2]
  rw [Finset.sum_congr rfl fun b _ => Finset.sum_congr rfl fun l _ => mask2_at x1 b l]
  rw [Ideal.ofBits_def, Ideal.ofBits_zero_f32, zero_add]
  rfl

/-- The count clamped below by one. -/
theorem clamp_at (i : S_.Idx) : val_main_v4 (F := Ideal) x1 i = max (count x1) one := by
  rw [val_main_v4_apply, count_at, val_main_cst_0_apply]
  rfl

theorem clamp8_at (ch : Fin 512) : val_main_v8 (F := Ideal) x1 (ix1 ch) = max (count x1) one := by
  rw [val_main_v8_apply, clamp_at]
theorem clamp17_at (ch : Fin 512) : val_main_v17 (F := Ideal) x1 (ix1 ch) = max (count x1) one := by
  rw [val_main_v17_apply, clamp_at]

/-! ### The mean -/

/-- The masked sum of channel `ch`. -/
theorem sum7_at (ch : Fin 512) : val_main_v7 (F := Ideal) x0 x1 (ix1 ch) = sumX x0 x1 ch := by
  unfold val_main_v7
  generalize hy : val_main_v6 (F := Ideal) x0 x1 = y
  simp only [Host.reduceAdd, Ideal.hostReduceAdd_def]
  refine (hostReduceAdd_outer_inner _ y _ ch).trans ?_
  subst hy
  rw [val_main_cst_1_apply, Ideal.ofBits_def, Ideal.ofBits_zero_f32, zero_add]
  refine Finset.sum_congr rfl fun b _ => Finset.sum_congr rfl fun l _ => ?_
  rw [val_main_v6_apply, mask5_at]
  rfl

/-- The mean of channel `ch`. -/
theorem mean_at (ch : Fin 512) : val_main_v9 (F := Ideal) x0 x1 (ix1 ch) = meanR x0 x1 ch := by
  rw [val_main_v9_apply, sum7_at, clamp8_at]
  rfl

/-- A per-channel vector broadcast over the whole array is read at the channel coordinate. -/
theorem chan_idx (b : Fin 32) (ch : Fin 512) (l : Fin 4096) :
    idx_main_v10 (idx_main_v11 (ix3 b ch l)) = ix1 ch :=
  funext fun a => Fin.ext (by match a with | ⟨0, _⟩ => rfl)

theorem mean11_at (b : Fin 32) (ch : Fin 512) (l : Fin 4096) :
    val_main_v11 (F := Ideal) x0 x1 (ix3 b ch l) = meanR x0 x1 ch := by
  rw [val_main_v11_apply, val_main_v10_apply, chan_idx, mean_at]

/-- The deviation from the channel's mean. -/
theorem dev_at (b : Fin 32) (ch : Fin 512) (l : Fin 4096) :
    val_main_v12 (F := Ideal) x0 x1 (ix3 b ch l) = x0 (ix3 b ch l) - meanR x0 x1 ch := by
  rw [val_main_v12_apply, mean11_at]
  rfl

/-! ### The variance and the reciprocal deviation -/

/-- The sum of the squared masked deviations of channel `ch`. -/
theorem sum16_at (ch : Fin 512) : val_main_v16 (F := Ideal) x0 x1 (ix1 ch) = devSq x0 x1 ch := by
  unfold val_main_v16
  generalize hy : val_main_v15 (F := Ideal) x0 x1 = y
  simp only [Host.reduceAdd, Ideal.hostReduceAdd_def]
  refine (hostReduceAdd_outer_inner _ y _ ch).trans ?_
  subst hy
  rw [val_main_cst_2_apply, Ideal.ofBits_def, Ideal.ofBits_zero_f32, zero_add]
  refine Finset.sum_congr rfl fun b _ => Finset.sum_congr rfl fun l _ => ?_
  rw [val_main_v15_apply, val_main_v14_apply, dev_at, mask13_at]
  rfl

/-- The variance of channel `ch`. -/
theorem var_at (ch : Fin 512) : val_main_v18 (F := Ideal) x0 x1 (ix1 ch) = varR x0 x1 ch := by
  rw [val_main_v18_apply, sum16_at, clamp17_at]
  rfl

/-- The reciprocal deviation of channel `ch`. -/
theorem inv_at (ch : Fin 512) : val_main_v21 (F := Ideal) x0 x1 (ix1 ch) = invR x0 x1 ch := by
  rw [val_main_v21_apply, val_main_v20_apply, var_at, val_main_v19_apply, val_main_cst_3_apply,
    Ideal.hostUnary_rsqrt_def, Ideal.addf_def, Ideal.ofBits_def]
  unfold invR eps
  rfl

theorem inv23_at (b : Fin 32) (ch : Fin 512) (l : Fin 4096) :
    val_main_v23 (F := Ideal) x0 x1 (ix3 b ch l) = invR x0 x1 ch := by
  rw [val_main_v23_apply, val_main_v22_apply,
    show idx_main_v22 (idx_main_v23 (ix3 b ch l)) = ix1 ch from chan_idx b ch l, inv_at]

/-! ### The result -/

/-- The reference's result is the squared-deviation form, entry by entry. -/
theorem result_eq (x0 : (⟨Cert.ReferenceIdeal.S32x512x4096, .f32⟩ : BufTy).Contents (Elt Ideal))
    (x1 : (⟨Cert.ReferenceIdeal.S32x4096, .i32⟩ : BufTy).Contents (Elt Ideal))
    (x2 x3 : (⟨Cert.ReferenceIdeal.S512, .f32⟩ : BufTy).Contents (Elt Ideal)) :
    Cert.ReferenceIdeal.Read.val_main_v32 (F := Ideal) x0 x1 x2 x3 = Cert.MaskedNorm.refOut x0 x1 x2 x3 := by
  funext i
  obtain ⟨b, ch, l, rfl⟩ : ∃ (b : Fin 32) (ch : Fin 512) (l : Fin 4096), i = ix3 b ch l := ⟨i 0, i 1, i 2, eq_ix3 i⟩
  rw [val_main_v32_apply, val_main_v29_apply, val_main_v26_apply, val_main_v24_apply, dev_at, inv23_at, mask25_at,
    val_main_v28_apply, val_main_v27_apply, val_main_v31_apply, val_main_v30_apply,
    show idx_main_v27 (idx_main_v28 (ix3 b ch l)) = ix1 ch from chan_idx b ch l,
    show idx_main_v30 (idx_main_v31 (ix3 b ch l)) = ix1 ch from chan_idx b ch l]
  rfl

end Cert.RefStages

end
-- ==== Proof.PreWords.lean ====
/-
  What the precondition says of the inputs, and the count of the mask in 32-bit integer arithmetic.

  The precondition is the conjunction of four facts, each a reduction by "and" over a whole array: every
  entry of the data array, of the scale vector and of the shift vector has absolute value below plus
  infinity, and every mask word equals zero or equals one. Read back: the three float arrays hold real
  numbers, and the mask holds only the words 0 and 1.

  The sum of the 32 · 4096 = 131072 mask words, taken in 32-bit two's-complement arithmetic from zero, never
  wraps when every word is 0 or 1, because every partial sum is at most the number of words met so far,
  far below 2^31. Hence the signed integer the 32-bit sum encodes is the sum of the integers the words encode.
-/
import proofs.«172571_j30889404792984_2_alg».proof.Defs
import proofs.«172571_j30889404792984_2_alg».proof.Proof.Spec
import proofs.«172571_j30889404792984_2_alg».proof.Proof.LibExtReal
import Idealize.ShloMosaic.Lib.ReduceAll
import Idealize.ShloMosaic.Lib.ValueIdx

noncomputable section

open scoped BigOperators

namespace Cert.PreWords

open Idealize.ShloMosaic Idealize.ShloMosaic.ValueIdx Idealize.SL.Sem

/-- The rank-zero shape has one index. -/
instance : Subsingleton (⟨0, ![]⟩ : Shape).Idx := ⟨fun a b => funext fun d => d.elim0⟩

/-- An extended real whose absolute value lies below the pattern of plus infinity is a real number:
    the pattern denotes the top element, and the absolute value of either infinity is the top element. -/
theorem real_of_abs_lt_inf (a : EReal)
    (h : Ideal.cmp .olt (max a (-a)) (Ideal.ofBits .f32 0x7F800000#32) = 1#1) : ∃ r : ℝ, a = (r : EReal) := by
  have hinf : Ideal.ofBits .f32 0x7F800000#32 = (⊤ : EReal) := by simp [Ideal.ofBits, Ideal.ieee]
  rw [hinf] at h
  induction a using EReal.rec with
  | bot => simp [Ideal.cmp] at h
  | coe r => exact ⟨r, rfl⟩
  | top => simp [Ideal.cmp] at h

/-- A 32-bit sum, from zero, of words that are each 0 or 1, over fewer than 2^31 of them, encodes the sum
    of the integers the words encode: every partial sum lies between zero and the number of words met, so
    no addition wraps. -/
theorem fold_addi_toInt {ι : Type} (k : ι → BitVec 32) (hk : ∀ j, k j = 0#32 ∨ k j = 1#32) (s : Finset ι) :
    s.card < 2 ^ 31 →
      (s.fold IntOp.addi 0#32 k).toInt = ∑ i ∈ s, (k i).toInt
        ∧ 0 ≤ ∑ i ∈ s, (k i).toInt ∧ ∑ i ∈ s, (k i).toInt ≤ (s.card : ℤ) := by
  classical
  induction s using Finset.induction_on with
  | empty => intro _; simp
  | insert a s ha ih =>
    intro hc
    rw [Finset.card_insert_of_notMem ha] at hc
    obtain ⟨e, h0, h1⟩ := ih (by omega)
    rw [Finset.fold_insert ha, Finset.sum_insert ha, Finset.card_insert_of_notMem ha]
    show (k a + s.fold IntOp.addi 0#32 k).toInt = _ ∧ _
    rw [BitVec.toInt_add, e]
    rcases hk a with h | h
    · rw [h]
      have : (0#32 : BitVec 32).toInt = 0 := by decide
      rw [this]
      generalize (∑ i ∈ s, (k i).toInt) = S at h0 h1 ⊢
      push_cast
      refine ⟨Int.bmod_eq_of_le_mul_two (by push_cast; omega) (by push_cast; omega), by omega, by omega⟩
    · rw [h]
      have : (1#32 : BitVec 32).toInt = 1 := by decide
      rw [this]
      generalize (∑ i ∈ s, (k i).toInt) = S at h0 h1 ⊢
      push_cast
      refine ⟨Int.bmod_eq_of_le_mul_two (by push_cast; omega) (by push_cast; omega), by omega, by omega⟩

/-- The mask's index set has 32 · 4096 elements. -/
theorem card_SM : Fintype.card Cert.MaskedNorm.SM.Idx = 32 * 4096 := by
  rw [Fintype.card_congr (idxEquiv2 (n0 := 32) (n1 := 4096)), Fintype.card_prod, Fintype.card_fin, Fintype.card_fin]

/-- The count taken in 32-bit integer arithmetic, converted afterwards, is the count of the converted words. -/
theorem count_words (k : Cert.MaskedNorm.SM.Idx → BitVec 32) (hk : ∀ j, k j = 0#32 ∨ k j = 1#32)
    (h : Cert.MaskedNorm.SM.ReducesTo [0, 1] (⟨0, ![]⟩ : Shape)) (hu : 0 < (⟨0, ![]⟩ : Shape).numel)
    (j : (⟨0, ![]⟩ : Shape).Idx) :
    (((Host.reduce IntOp.addi k (constantI (⟨0, ![]⟩ : Shape) 32 0#32) h hu j).toInt : ℝ) : EReal)
      = Cert.MaskedNorm.count k := by
  rw [Host.reduce_eq_fold, Finset.filter_true_of_mem (fun i _ => Subsingleton.elim _ _)]
  have hc : (Finset.univ : Finset Cert.MaskedNorm.SM.Idx).card < 2 ^ 31 := by
    rw [Finset.card_univ, card_SM]; norm_num
  have e := (fold_addi_toInt k hk Finset.univ hc).1
  show (((Finset.fold IntOp.addi (0#32) k Finset.univ).toInt : ℝ) : EReal) = _
  rw [e, Int.cast_sum, ← Cert.LibExtReal.coe_sum, sum_idx2]
  rfl

variable [Cert.Pre_finite_inputs.Facts]

/-- The precondition's function, all ones: its four conjuncts read back element by element. The data array,
    the scale and the shift hold real numbers; the mask holds only the words 0 and 1. -/
theorem fn_one (x : FVec Ideal Cert.Pre_finite_inputs.S32x512x4096 .f32) (k : IVec Cert.Pre_finite_inputs.S32x4096 32)
    (w β : FVec Ideal Cert.Pre_finite_inputs.S512 .f32)
    (h : Cert.Pre_finite_inputs.fn (F := Ideal) x k w β = fun _ => 1#1) :
    (∀ i, ∃ r : ℝ, x i = (r : EReal)) ∧ (∀ j, k j = 0#32 ∨ k j = 1#32)
      ∧ (∀ a, ∃ r : ℝ, w a = (r : EReal)) ∧ (∀ a, ∃ r : ℝ, β a = (r : EReal)) := by
  have e := congrFun h ix0
  unfold Cert.Pre_finite_inputs.fn Cert.Pre_finite_inputs.fn_part1 at e
  dsimp only at e
  simp only [andi] at e
  rw [IntOp.andi_eq_one, IntOp.andi_eq_one, IntOp.andi_eq_one] at e
  obtain ⟨⟨⟨h3, h7⟩, h12⟩, h19⟩ := e
  refine ⟨fun i => ?_, fun j => ?_, fun a => ?_, fun a => ?_⟩
  · exact real_of_abs_lt_inf (x i) (Host.reduce_andi_all _ _ _ _ _ h3 i)
  · have hj := Host.reduce_andi_all _ _ _ _ _ h19 j
    have hj' : IntOp.ori (IntOp.cmpi .eq (k j) 0#32) (IntOp.cmpi .eq (k j) 1#32) = 1#1 := hj
    rw [IntOp.ori_eq_one, IntOp.cmpi_eq, IntOp.cmpi_eq] at hj'
    exact hj'
  · exact real_of_abs_lt_inf (w a) (Host.reduce_andi_all _ _ _ _ _ h7 a)
  · exact real_of_abs_lt_inf (β a) (Host.reduce_andi_all _ _ _ _ _ h12 a)

/-- Under the precondition every entry of the data array is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32x512x4096.Idx) :
    ∃ r : ℝ, m ((c.tc : Thread Cert.KernelIdeal.nD Cert.KernelIdeal.τ).loc Cert.KernelIdeal.main_arg0) i = (r : EReal) :=
  (fn_one _ _ _ _ (h c)).1 i

/-- Under the precondition every mask word is zero or one. -/
theorem mask01_of_pre (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S32x4096.Idx) :
    m ((c.tc : Thread Cert.KernelIdeal.nD Cert.KernelIdeal.τ).loc Cert.KernelIdeal.main_arg1) j = 0#32
      ∨ m ((c.tc : Thread Cert.KernelIdeal.nD Cert.KernelIdeal.τ).loc Cert.KernelIdeal.main_arg1) j = 1#32 :=
  (fn_one _ _ _ _ (h c)).2.1 j

/-- Under the precondition every entry of the scale vector is a real number. -/
theorem scale_real_of_pre (m : (ℓ : Loc Cert.KernelIdeal.nD Cert.KernelIdeal.τ Cert.KernelIdeal.sig) → Buf (Elt Ideal) ℓ)
    (h : Cert.Pre_KernelIdeal m) (c : Dev Cert.KernelIdeal.nD) (a : Cert.KernelIdeal.S512.Idx) :
    ∃ r : ℝ, m ((c.tc : Thread Cert.KernelIdeal.nD Cert.KernelIdeal.τ).loc Cert.KernelIdeal.main_arg2) a = (r : EReal) :=
  (fn_one _ _ _ _ (h c)).2.2.1 a

/-- Under the precondition every entry of the shift vector is a real number. -/
theorem shift_real_of_pre (m : (ℓ : Loc Cert.KernelIdeal.nD Cert.KernelIdeal.τ Cert.KernelIdeal.sig) → Buf (Elt Ideal) ℓ)
    (h : Cert.Pre_KernelIdeal m) (c : Dev Cert.KernelIdeal.nD) (a : Cert.KernelIdeal.S512.Idx) :
    ∃ r : ℝ, m ((c.tc : Thread Cert.KernelIdeal.nD Cert.KernelIdeal.τ).loc Cert.KernelIdeal.main_arg3) a = (r : EReal) :=
  (fn_one _ _ _ _ (h c)).2.2.2 a

end Cert.PreWords

end
-- ==== Proof.StatsValue.lean ====
/-
  The statistics kernel of a masked batch normalisation, read as values on the extended reals.

  The kernel walks a 4×16 grid over a [32,512,4096] data array x and a [32,4096] integer mask k: point t sees rows
  8·(t/16) … 8·(t/16)+7 and positions 256·(t mod 16) … 256·(t mod 16)+255, all 512 channels. It keeps two [1,512]
  accumulators across the whole grid: at the first point both are set to zero, and every point adds, per channel ch,
  the block's Σ x·k to the first and the block's Σ (x·k)·x to the second, where the mask word is read as the signed
  integer it encodes. The accumulators are copied to the two result arrays once, after the last point.

  Proved here, for any contents of the buffers when the kernel starts: the first result array holds at channel ch
  the sum of x(b,ch,l)·k(b,l) over all 32 rows b and 4096 positions l, and the second the sum of
  (x(b,ch,l)·k(b,l))·x(b,ch,l). The 64 block sums make up the whole double sum by re-indexing and the commutativity
  of finite sums alone, so nothing is assumed about the entries being finite.
-/
import proofs.«172571_j30889404792984_2_alg».proof.Proof.Gen.KernelIdeal.Frame
import proofs.«172571_j30889404792984_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Stats

open Cert.KernelIdeal Cert.KernelIdeal.Gen

/-! ## What one run of the body leaves in the two accumulators

The body first (at the first grid point only) stores a zero row into each accumulator, then loads the
[8,512,256] data block and the [8,256] mask block, and stores into each accumulator its previous contents
plus the block's masked sum (resp. masked second moment) per channel. Every load and store is of a whole
buffer at zero offsets, so what the stores leave is the last store's value with each load replaced by the
buffer's contents. -/

section Pieces
variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- At a point other than the first, the first accumulator becomes its old contents plus the block's masked sum. -/
theorem later_sum (c : Dev nD) (i : grid0.Coords) (a2 : Memref sig .tc .vmem S8x512x256 .f32) (h2 : a2.IsWhole)
    (a3 : Memref sig .tc .vmem S8x256 .i32) (h3 : a3.IsWhole) (a4 : Memref sig .tc .vmem S1x512 .f32) (h4 : a4.IsWhole)
    (a5 : Memref sig .tc .vmem S1x512 .f32) (h5 : a5.IsWhole) (hc : ¬cond0_0 i)
    (x0 : Vec F S8x512x256 .f32) (x1 : Vec F S8x256 .i32) (xo2 xo3 : Vec F S1x512 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero zeros2]
  simp only [View.readAt_eq_ld, h2.read_unread, h3.read_unread, h4.read_unread,
    View.ld_unit_zero (S := S8x512x256) zeros3, View.ld_unit_zero (S := S8x256) zeros2,
    View.ld_unit_zero (S := S1x512) zeros2]

/-- At a point other than the first, the second accumulator becomes its old contents plus the block's masked second moment. -/
theorem later_sq (c : Dev nD) (i : grid0.Coords) (a2 : Memref sig .tc .vmem S8x512x256 .f32) (h2 : a2.IsWhole)
    (a3 : Memref sig .tc .vmem S8x256 .i32) (h3 : a3.IsWhole) (a4 : Memref sig .tc .vmem S1x512 .f32) (h4 : a4.IsWhole)
    (a5 : Memref sig .tc .vmem S1x512 .f32) (h5 : a5.IsWhole) (hc : ¬cond0_0 i)
    (x0 : Vec F S8x512x256 .f32) (x1 : Vec F S8x256 .i32) (xo2 xo3 : Vec F S1x512 .f32) :
    out0_B_3 c i a2 h2 a3 h3 a4 h4 a5 h5 hc x0 x1 xo2 xo3 = k0_pay5 x0 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero zeros2]
  simp only [View.readAt_eq_ld, h2.read_unread, h3.read_unread, h5.read_unread,
    View.ld_unit_zero (S := S8x512x256) zeros3, View.ld_unit_zero (S := S8x256) zeros2,
    View.ld_unit_zero (S := S1x512) zeros2]

/-- At the first point the first accumulator is zeroed, read back, and left at zero plus the block's masked sum. -/
theorem first_sum (c : Dev nD) (i : grid0.Coords) (a2 : Memref sig .tc .vmem S8x512x256 .f32) (h2 : a2.IsWhole)
    (a3 : Memref sig .tc .vmem S8x256 .i32) (h3 : a3.IsWhole) (a4 : Memref sig .tc .vmem S1x512 .f32) (h4 : a4.IsWhole)
    (a5 : Memref sig .tc .vmem S1x512 .f32) (h5 : a5.IsWhole) (hc : cond0_0 i)
    (x0 : Vec F S8x512x256 .f32) (x1 : Vec F S8x256 .i32) :
    out0_A_2 c i a2 h2 a3 h3 a4 h4 a5 h5 hc x0 x1 = k0_pay4 x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x512) zeros2, View.readCov_unit_zero (S := S1x512) _ zeros2]
  simp only [View.readAt_eq_ld, h2.read_unread, h3.read_unread,
    View.ld_unit_zero (S := S8x512x256) zeros3, View.ld_unit_zero (S := S8x256) zeros2]

/-- At the first point the second accumulator is zeroed, read back, and left at zero plus the block's masked second moment. -/
theorem first_sq (c : Dev nD) (i : grid0.Coords) (a2 : Memref sig .tc .vmem S8x512x256 .f32) (h2 : a2.IsWhole)
    (a3 : Memref sig .tc .vmem S8x256 .i32) (h3 : a3.IsWhole) (a4 : Memref sig .tc .vmem S1x512 .f32) (h4 : a4.IsWhole)
    (a5 : Memref sig .tc .vmem S1x512 .f32) (h5 : a5.IsWhole) (hc : cond0_0 i)
    (x0 : Vec F S8x512x256 .f32) (x1 : Vec F S8x256 .i32) :
    out0_A_3 c i a2 h2 a3 h3 a4 h4 a5 h5 hc x0 x1 = k0_pay5 x0 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x512) zeros2, View.readCov_unit_zero (S := S1x512) _ zeros2]
  simp only [View.readAt_eq_ld, h2.read_unread, h3.read_unread,
    View.ld_unit_zero (S := S8x512x256) zeros3, View.ld_unit_zero (S := S8x256) zeros2]

end Pieces

/-! ## The body's arithmetic read entry by entry on the extended reals

The mask block is converted to numbers, given a unit channel axis and repeated along the 512 channels; the
product with the data block is summed along the 256 positions and then along the 8 rows, and added to the
accumulator's row. -/

section Entries

/-- The masked product at (b, ch, l): the data entry times the number the mask word at (b, l) encodes. -/
theorem masked_entry (x : Vec Ideal S8x512x256 .f32) (m : Vec Ideal S8x256 .i32) (b : Fin 8) (ch : Fin 512) (l : Fin 256) :
    k0_pay3 (F := Ideal) x m (ix3 b ch l) = x (ix3 b ch l) * (((m (ix2 b l)).toInt : ℝ) : EReal) := by
  unfold k0_pay3
  refine congrArg (fun z : EReal => x (ix3 b ch l) * z) ?_
  refine (broadcastTo_apply _ broadcasts_S8x1x256_S8x512x256 (ix3 b ch l) (ix3 b (0 : Fin 1) l) (fun a => ?_)).trans ?_
  · match a with
    | ⟨0, _⟩ => rfl
    | ⟨1, _⟩ => rfl
    | ⟨2, _⟩ => rfl
  refine (congrFun (shapeCast_self _ shapeCasts_S8x1x256_S8x1x256) (ix3 b (0 : Fin 1) l)).trans ?_
  refine (shapeCast_apply _ shapeCasts_S8x256_S8x1x256 (ix3 b (0 : Fin 1) l) (ix2 b l) ?_).trans rfl
  rw [Shape.rowMajor_val_three, Shape.rowMajor_val_two]
  show b.val * 256 + l.val = (b.val * 1 + 0) * 256 + l.val
  omega

/-- A sum over the 256 positions of a [8,512,256] block, then over its 8 rows, recast as a [1,512] row, at channel ch. -/
theorem block_total (v : FVec Ideal S8x512x256 .f32) (hφ : FKind.Formats .f32)
    (hacc : (0x00000000#32 : BitVec 32) = 0x00000000#32) (ch : Fin 512) :
    shapeCast S1x512 (multiReduction (F := Ideal) .add [0] S512
        (multiReduction (F := Ideal) .add [2] S8x512 v 0x00000000#32 reduces_S8x512x256_S8x512 hφ hacc)
        0x00000000#32 reduces_S8x512_S512 hφ hacc) shapeCasts_S512_S1x512 (ix2 (0 : Fin 1) ch)
      = ∑ b : Fin 8, ∑ l : Fin 256, v (ix3 b ch l) := by
  refine (shapeCast_a_1a_apply _ shapeCasts_S512_S1x512 (0 : Fin 1) ch).trans ?_
  refine (Ideal.multiReduction_add_single _ 0x00000000#32 reduces_S8x512_S512 hφ hacc (ix1 ch)).trans ?_
  refine Finset.sum_congr rfl fun b _ => ?_
  refine (Ideal.multiReduction_add_single v 0x00000000#32 reduces_S8x512x256_S8x512 hφ hacc _).trans ?_
  refine Finset.sum_congr rfl fun l _ => ?_
  refine congrArg v (funext fun a => Fin.ext ?_)
  match a with
  | ⟨0, _⟩ => rfl
  | ⟨1, _⟩ => rfl
  | ⟨2, _⟩ => rfl

/-- The new first accumulator at channel ch: the old entry plus the block's masked sum. -/
theorem sum_entry (x : Vec Ideal S8x512x256 .f32) (m : Vec Ideal S8x256 .i32) (acc : Vec Ideal S1x512 .f32) (ch : Fin 512) :
    k0_pay4 (F := Ideal) x m acc (ix2 (0 : Fin 1) ch)
      = acc (ix2 (0 : Fin 1) ch)
        + ∑ b : Fin 8, ∑ l : Fin 256, x (ix3 b ch l) * (((m (ix2 b l)).toInt : ℝ) : EReal) := by
  unfold k0_pay4
  show shapeCast S1x512 acc shapeCasts_S1x512_S1x512 (ix2 (0 : Fin 1) ch) + _ = _
  rw [shapeCast_self]
  refine congrArg (fun z : EReal => acc (ix2 (0 : Fin 1) ch) + z) ?_
  refine (block_total (k0_pay3 (F := Ideal) x m) (.inl rfl) rfl ch).trans ?_
  exact Finset.sum_congr rfl fun b _ => Finset.sum_congr rfl fun l _ => masked_entry x m b ch l

/-- The new second accumulator at channel ch: the old entry plus the block's masked second moment. -/
theorem sq_entry (x : Vec Ideal S8x512x256 .f32) (m : Vec Ideal S8x256 .i32) (acc : Vec Ideal S1x512 .f32) (ch : Fin 512) :
    k0_pay5 (F := Ideal) x m acc (ix2 (0 : Fin 1) ch)
      = acc (ix2 (0 : Fin 1) ch)
        + ∑ b : Fin 8, ∑ l : Fin 256, (x (ix3 b ch l) * (((m (ix2 b l)).toInt : ℝ) : EReal)) * x (ix3 b ch l) := by
  unfold k0_pay5
  show shapeCast S1x512 acc shapeCasts_S1x512_S1x512 (ix2 (0 : Fin 1) ch) + _ = _
  rw [shapeCast_self]
  refine congrArg (fun z : EReal => acc (ix2 (0 : Fin 1) ch) + z) ?_
  refine (block_total (mulf (k0_pay3 (F := Ideal) x m) x) (.inl rfl) rfl ch).trans ?_
  exact Finset.sum_congr rfl fun b _ => Finset.sum_congr rfl fun l _ =>
    congrArg (fun z : EReal => z * x (ix3 b ch l)) (masked_entry x m b ch l)

/-- The zero row the first point stores, at any entry. -/
theorem zero_row_1 (j : S1x512.Idx) : k0_pay1 (F := Ideal) j = 0 := Ideal.ofBits_zero_f32
theorem zero_row_2 (j : S1x512.Idx) : k0_pay2 (F := Ideal) j = 0 := Ideal.ofBits_zero_f32

end Entries

/-! ## The input blocks

At point t the data window holds rows 8·(t/16)+b and positions 256·(t mod 16)+l of the [32,512,4096] array, all 512
channels; the mask window holds the same rows and positions of the [32,4096] mask. -/

section Blocks
variable {F : FTy → Type} [FloatOps F]
variable (V : (c : Dev nD) → (b : Ref sig .tc) → Buf (Elt F) ((c : Thread nD τ).loc b)) (c : Dev nD)

/-- The block index of the data window at point t, axis by axis. -/
theorem data_index : ∀ t : Fin cfg0.N, win0_0.index t (0 : Fin 3) = t.val / 16 ∧ win0_0.index t (1 : Fin 3) = 0
    ∧ win0_0.index t (2 : Fin 3) = t.val % 16 :=
  (by decide +kernel : ∀ t : Fin grid0.N, win0_0.index t (0 : Fin 3) = t.val / 16 ∧ win0_0.index t (1 : Fin 3) = 0
    ∧ win0_0.index t (2 : Fin 3) = t.val % 16)

/-- The block index of the mask window at point t. -/
theorem mask_index : ∀ t : Fin cfg0.N, win0_1.index t (0 : Fin 2) = t.val / 16 ∧ win0_1.index t (1 : Fin 2) = t.val % 16 :=
  (by decide +kernel : ∀ t : Fin grid0.N, win0_1.index t (0 : Fin 2) = t.val / 16 ∧ win0_1.index t (1 : Fin 2) = t.val % 16)

/-- An entry of the data block at point t is the array's entry at the shifted row and position. -/
theorem data_block (t : Fin cfg0.N) (y : S8x512x256.Idx) (i : S32x512x4096.Idx)
    (h0 : (i 0).val = 8 * (t.val / 16) + (y 0).val) (h1 : (i 1).val = (y 1).val)
    (h2 : (i 2).val = 256 * (t.val % 16) + (y 2).val) :
    (iblk0 V c 0 t : Vec F S8x512x256 .f32) y = V c main_arg0 i := by
  show V c main_arg0 (((cfg0.win 0).blk t).view.emb y) = V c main_arg0 i
  refine congrArg (V c main_arg0) (funext fun a => Fin.ext ?_)
  obtain ⟨e0, e1, e2⟩ := data_index t
  match a with
  | ⟨0, _⟩ => show win0_0.index t 0 * 8 + 1 * (y 0).val = (i 0).val; rw [e0, h0]; omega
  | ⟨1, _⟩ => show win0_0.index t 1 * 512 + 1 * (y 1).val = (i 1).val; rw [e1, h1]; omega
  | ⟨2, _⟩ => show win0_0.index t 2 * 256 + 1 * (y 2).val = (i 2).val; rw [e2, h2]; omega

/-- An entry of the mask block at point t is the mask's entry at the shifted row and position. -/
theorem mask_block (t : Fin cfg0.N) (y : S8x256.Idx) (i : S32x4096.Idx)
    (h0 : (i 0).val = 8 * (t.val / 16) + (y 0).val) (h1 : (i 1).val = 256 * (t.val % 16) + (y 1).val) :
    (iblk0 V c 1 t : Vec F S8x256 .i32) y = V c main_arg1 i := by
  show V c main_arg1 (((cfg0.win 1).blk t).view.emb y) = V c main_arg1 i
  refine congrArg (V c main_arg1) (funext fun a => Fin.ext ?_)
  obtain ⟨e0, e1⟩ := mask_index t
  match a with
  | ⟨0, _⟩ => show win0_1.index t 0 * 8 + 1 * (y 0).val = (i 0).val; rw [e0, h0]; omega
  | ⟨1, _⟩ => show win0_1.index t 1 * 256 + 1 * (y 1).val = (i 1).val; rw [e1, h1]; omega

end Blocks

/-! ## The 64 blocks together are the whole array

Point t of the 4×16 grid holds rows 8·(t/16) … 8·(t/16)+7 and positions 256·(t mod 16) … 256·(t mod 16)+255.
Summing a function of (row, position) block by block gives its sum over all 32 rows and 4096 positions: only
re-indexing and the commutativity of a finite sum are used, so this holds in any commutative monoid and in
particular on the extended reals, infinities included. -/

section Regroup
variable {M : Type*} [AddCommMonoid M]

/-- A sum over m·n indices, grouped as m runs of n. -/
theorem sum_runs {N : ℕ} (m n : ℕ) (h : N = m * n) (g : Fin N → M) (idx : Fin m → Fin n → Fin N)
    (hidx : ∀ p q, (idx p q).val = n * p.val + q.val) : ∑ i, g i = ∑ p, ∑ q, g (idx p q) := by
  subst h
  rw [← Equiv.sum_comp finProdFinEquiv g, Fintype.sum_prod_type]
  refine Finset.sum_congr rfl fun p _ => Finset.sum_congr rfl fun q _ => congrArg g (Fin.ext ?_)
  rw [hidx]
  show q.val + n * p.val = n * p.val + q.val
  exact Nat.add_comm _ _

/-- The row of the array that row b of point n's block is, and likewise the position. -/
def row (n : ℕ) (hn : n < 64) (b : Fin 8) : Fin 32 := ⟨8 * (n / 16) + b.val, by omega⟩
def col (n : ℕ) (hn : n < 64) (l : Fin 256) : Fin 4096 := ⟨256 * (n % 16) + l.val, by omega⟩

/-- The sum of f over the block of point n. -/
def blockSum (f : Fin 32 → Fin 4096 → M) (n : ℕ) (hn : n < 64) : M :=
  ∑ b : Fin 8, ∑ l : Fin 256, f (row n hn b) (col n hn l)

theorem blocks_total (f : Fin 32 → Fin 4096 → M) :
    ∑ t : Fin 64, blockSum f t.val t.isLt = ∑ b : Fin 32, ∑ l : Fin 4096, f b l := by
  rw [sum_runs 4 16 (by norm_num : 64 = 4 * 16) (fun t : Fin 64 => blockSum f t.val t.isLt)
      (fun p q => ⟨16 * p.val + q.val, by omega⟩) (fun _ _ => rfl),
    sum_runs 4 8 (by norm_num : 32 = 4 * 8) (fun b' : Fin 32 => ∑ l : Fin 4096, f b' l)
      (fun p b => ⟨8 * p.val + b.val, by omega⟩) (fun _ _ => rfl)]
  refine Finset.sum_congr rfl fun p _ => ?_
  unfold blockSum
  rw [Finset.sum_comm]
  refine Finset.sum_congr rfl fun b _ => ?_
  rw [sum_runs 16 256 (by norm_num : 4096 = 16 * 256) (fun l' : Fin 4096 => f ⟨8 * p.val + b.val, by omega⟩ l')
      (fun q l => ⟨256 * q.val + l.val, by omega⟩) (fun _ _ => rfl)]
  refine Finset.sum_congr rfl fun q _ => Finset.sum_congr rfl fun l _ => ?_
  have hp : (16 * p.val + q.val) / 16 = p.val := by omega
  have hq : (16 * p.val + q.val) % 16 = q.val := by omega
  have e1 : row (16 * p.val + q.val) (by omega) b = ⟨8 * p.val + b.val, by omega⟩ := Fin.ext (by show 8 * ((16 * p.val + q.val) / 16) + b.val = _; rw [hp])
  have e2 : col (16 * p.val + q.val) (by omega) l = ⟨256 * q.val + l.val, by omega⟩ := Fin.ext (by show 256 * ((16 * p.val + q.val) % 16) + l.val = _; rw [hq])
  show f (row (16 * p.val + q.val) _ b) (col (16 * p.val + q.val) _ l) = _
  rw [e1, e2]

/-- The running total after point n: the blocks of points 0 … n. -/
def upTo (f : Fin 32 → Fin 4096 → M) : (n : ℕ) → n < 64 → M
  | 0, h => blockSum f 0 h
  | n + 1, h => upTo f n (Nat.lt_of_succ_lt h) + blockSum f (n + 1) h

theorem upTo_eq_range (f : Fin 32 → Fin 4096 → M) : ∀ (n : ℕ) (h : n < 64),
    upTo f n h = ∑ t ∈ Finset.range (n + 1), if ht : t < 64 then blockSum f t ht else 0
  | 0, h => by rw [Finset.sum_range_one, dif_pos h]; rfl
  | n + 1, h => by rw [Finset.sum_range_succ, dif_pos h, ← upTo_eq_range f n (Nat.lt_of_succ_lt h)]; rfl

/-- After the last point the running total is the sum over the whole array. -/
theorem upTo_last (f : Fin 32 → Fin 4096 → M) (h : 63 < 64) : upTo f 63 h = ∑ b : Fin 32, ∑ l : Fin 4096, f b l := by
  rw [upTo_eq_range, ← blocks_total f,
    ← Fin.sum_univ_eq_sum_range (fun t => if ht : t < 64 then blockSum f t ht else 0) 64]
  exact Finset.sum_congr rfl fun t _ => dif_pos t.isLt

end Regroup

/-! ## The accumulators after each point

For a channel ch, the first accumulator's entry after point n is the sum of x·k over the blocks of points 0 … n,
and the second's the sum of (x·k)·x over them: the first point starts from the zero row, every later point adds its
block to what the point before left. -/

section Running
variable (V : (c : Dev nD) → (b : Ref sig .tc) → Buf (Elt Ideal) ((c : Thread nD τ).loc b)) (c : Dev nD)

/-- The data array and the mask as the region finds them, and the two input blocks at point t. -/
abbrev xs : Cert.MaskedNorm.SX.Idx → EReal := V c main_arg0
abbrev ks : Cert.MaskedNorm.SM.Idx → BitVec 32 := V c main_arg1
abbrev xblk (t : Fin cfg0.N) : Vec Ideal S8x512x256 .f32 := iblk0 V c 0 t
abbrev kblk (t : Fin cfg0.N) : Vec Ideal S8x256 .i32 := iblk0 V c 1 t

/-- The summands of the two statistics of channel ch, as functions of the row and the position. -/
def termX (ch : Fin 512) (b : Fin 32) (l : Fin 4096) : EReal :=
  xs V c (ix3 b ch l) * Cert.MaskedNorm.mnum (ks V c) b l
def termXX (ch : Fin 512) (b : Fin 32) (l : Fin 4096) : EReal :=
  (xs V c (ix3 b ch l) * Cert.MaskedNorm.mnum (ks V c) b l) * xs V c (ix3 b ch l)

/-- The data block's entry (b, ch, l) at point t, and the mask block's (b, l), in the arrays. -/
theorem data_at (t : Fin cfg0.N) (ht : t.val < 64) (b : Fin 8) (ch : Fin 512) (l : Fin 256) :
    xblk V c t (ix3 b ch l)
      = xs V c (ix3 (row t.val ht b) ch (col t.val ht l)) :=
  data_block V c t (ix3 b ch l) (ix3 (row t.val ht b) ch (col t.val ht l)) rfl rfl rfl

theorem mask_at (t : Fin cfg0.N) (ht : t.val < 64) (b : Fin 8) (l : Fin 256) :
    (((kblk V c t (ix2 b l)).toInt : ℝ) : EReal)
      = Cert.MaskedNorm.mnum (ks V c) (row t.val ht b) (col t.val ht l) :=
  congrArg (fun w : BitVec 32 => ((w.toInt : ℝ) : EReal))
    (mask_block V c t (ix2 b l) (ix2 (row t.val ht b) (col t.val ht l)) rfl rfl)

/-- The block sums of point t. -/
theorem point_sum (t : Fin cfg0.N) (ht : t.val < 64) (ch : Fin 512) :
    ∑ b : Fin 8, ∑ l : Fin 256, xblk V c t (ix3 b ch l)
        * (((kblk V c t (ix2 b l)).toInt : ℝ) : EReal)
      = blockSum (termX V c ch) t.val ht :=
  Finset.sum_congr rfl fun b _ => Finset.sum_congr rfl fun l _ => by
    rw [data_at V c t ht b ch l, mask_at V c t ht b l]; rfl

theorem point_sq (t : Fin cfg0.N) (ht : t.val < 64) (ch : Fin 512) :
    ∑ b : Fin 8, ∑ l : Fin 256, (xblk V c t (ix3 b ch l)
        * (((kblk V c t (ix2 b l)).toInt : ℝ) : EReal))
        * xblk V c t (ix3 b ch l)
      = blockSum (termXX V c ch) t.val ht :=
  Finset.sum_congr rfl fun b _ => Finset.sum_congr rfl fun l _ => by
    rw [data_at V c t ht b ch l, mask_at V c t ht b l]; rfl

/-- The first point leaves its own block sums. -/
theorem at_first (t : Fin cfg0.N) (h0 : t.val % 64 = 0) (ht : t.val < 64) (ch : Fin 512) :
    (outsAt0 V c t.val t.isLt).1 (ix2 (0 : Fin 1) ch) = blockSum (termX V c ch) t.val ht
    ∧ (outsAt0 V c t.val t.isLt).2 (ix2 (0 : Fin 1) ch) = blockSum (termXX V c ch) t.val ht := by
  rw [outsAt0_A V c t h0]
  dsimp only
  constructor
  · rw [first_sum (F := Ideal) c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t)]
    refine (sum_entry (iblk0 V c 0 t) (iblk0 V c 1 t) (k0_pay1 (F := Ideal)) ch).trans ?_
    rw [zero_row_1, zero_add]
    exact point_sum V c t ht ch
  · rw [first_sq (F := Ideal) c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t)]
    refine (sq_entry (iblk0 V c 0 t) (iblk0 V c 1 t) (k0_pay2 (F := Ideal)) ch).trans ?_
    rw [zero_row_2, zero_add]
    exact point_sq V c t ht ch

/-- A later point adds its block sums to what the point before left. -/
theorem at_later (t : Fin cfg0.N) (h0 : ¬t.val % 64 = 0) (ht : t.val < 64) (ch : Fin 512) :
    (outsAt0 V c t.val t.isLt).1 (ix2 (0 : Fin 1) ch)
      = (outsAt0 V c (t.val - 1) (Nat.lt_of_le_of_lt (Nat.sub_le _ _) t.isLt)).1 (ix2 (0 : Fin 1) ch)
        + blockSum (termX V c ch) t.val ht
    ∧ (outsAt0 V c t.val t.isLt).2 (ix2 (0 : Fin 1) ch)
      = (outsAt0 V c (t.val - 1) (Nat.lt_of_le_of_lt (Nat.sub_le _ _) t.isLt)).2 (ix2 (0 : Fin 1) ch)
        + blockSum (termXX V c ch) t.val ht := by
  rw [outsAt0_B V c t h0]
  dsimp only
  constructor
  · rw [later_sum (F := Ideal) c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2]
    refine (sum_entry (iblk0 V c 0 t) (iblk0 V c 1 t) _ ch).trans ?_
    rw [point_sum V c t ht ch]
  · rw [later_sq (F := Ideal) c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2]
    refine (sq_entry (iblk0 V c 0 t) (iblk0 V c 1 t) _ ch).trans ?_
    rw [point_sq V c t ht ch]

/-- So after point n the accumulators hold the running totals of the blocks of points 0 … n. -/
theorem running (ch : Fin 512) : ∀ (n : ℕ) (hn : n < cfg0.N) (h64 : n < 64),
    (outsAt0 V c n hn).1 (ix2 (0 : Fin 1) ch) = upTo (termX V c ch) n h64
    ∧ (outsAt0 V c n hn).2 (ix2 (0 : Fin 1) ch) = upTo (termXX V c ch) n h64
  | 0, hn, h64 => at_first V c ⟨0, hn⟩ rfl h64 ch
  | n + 1, hn, h64 => by
    have hB : ¬(⟨n + 1, hn⟩ : Fin cfg0.N).val % 64 = 0 := by dsimp only; omega
    obtain ⟨e1, e2⟩ := at_later V c ⟨n + 1, hn⟩ hB h64 ch
    obtain ⟨r1, r2⟩ := running ch n (Nat.lt_of_succ_lt hn) (Nat.lt_of_succ_lt h64)
    exact ⟨e1.trans (congrArg (fun z : EReal => z + blockSum (termX V c ch) (n + 1) h64) r1),
      e2.trans (congrArg (fun z : EReal => z + blockSum (termXX V c ch) (n + 1) h64) r2)⟩

end Running

/-! ## From the accumulators to the result arrays

Each accumulator's window has the constant block index (0, 0), its one block is the whole [1,512] array, and it is
written back once, after the last point: the array ends holding the accumulator as point 63 leaves it. -/

section Arrays
variable {F : FTy → Type} [FloatOps F]
variable (V : (c : Dev nD) → (b : Ref sig .tc) → Buf (Elt F) ((c : Thread nD τ).loc b)) (c : Dev nD)

theorem last_lt : 63 < cfg0.N := lt_of_lt_of_eq (by decide : 63 < 64) (show cfg0.N = 64 from N_0).symm

/-- The two accumulator windows never move and their block has the array's extents. -/
theorem sum_window : ∀ t : Fin cfg0.N, win0_2.index t (0 : Fin 2) = 0 ∧ win0_2.index t (1 : Fin 2) = 0
    ∧ win0_2.xsize (grid0.coords t) (0 : Fin 2) = 1 ∧ win0_2.xsize (grid0.coords t) (1 : Fin 2) = 512 :=
  (by decide +kernel : ∀ t : Fin grid0.N, win0_2.index t (0 : Fin 2) = 0 ∧ win0_2.index t (1 : Fin 2) = 0
    ∧ win0_2.xsize (grid0.coords t) (0 : Fin 2) = 1 ∧ win0_2.xsize (grid0.coords t) (1 : Fin 2) = 512)
theorem sq_window : ∀ t : Fin cfg0.N, win0_3.index t (0 : Fin 2) = 0 ∧ win0_3.index t (1 : Fin 2) = 0
    ∧ win0_3.xsize (grid0.coords t) (0 : Fin 2) = 1 ∧ win0_3.xsize (grid0.coords t) (1 : Fin 2) = 512 :=
  (by decide +kernel : ∀ t : Fin grid0.N, win0_3.index t (0 : Fin 2) = 0 ∧ win0_3.index t (1 : Fin 2) = 0
    ∧ win0_3.xsize (grid0.coords t) (0 : Fin 2) = 1 ∧ win0_3.xsize (grid0.coords t) (1 : Fin 2) = 512)

/-- The accumulators after the last point, as contents of the two result arrays. -/
abbrev lastSum : Buf (Elt F) ((c : Thread nD τ).loc main_v0_0) := (outsAt0 V c 63 last_lt).1
abbrev lastSq : Buf (Elt F) ((c : Thread nD τ).loc main_v0_1) := (outsAt0 V c 63 last_lt).2

/-- The one write-back of the first accumulator, at point 63, writes it whole. -/
theorem flushed_sum (t : Fin cfg0.N) (hf : (cfg0.win 2).flush t = true) :
    (dat0 V c).flushed 2 t = ((cfg0.win 2).blk t).view.read (Elt F) (lastSum V c) := by
  have hN : cfg0.N = 64 := N_0
  have h63 : t.val = 63 := by have := (flush0_2 t).mp hf; have := t.isLt; omega
  obtain rfl : t = ⟨63, last_lt⟩ := Fin.ext h63
  show (cfg0.win 2).cut (grid0.coords ⟨63, last_lt⟩) ((dat0 V c).after 2 ⟨63, last_lt⟩) = _
  rw [after0_2]
  obtain ⟨e0, e1, -, -⟩ := sum_window ⟨63, last_lt⟩
  have hz' : (fun a => win0_2.index ⟨63, last_lt⟩ a * main_v0_0.ty.shape.size a) = fun _ => 0 := funext fun a => by
    match a with
    | ⟨0, _⟩ => show win0_2.index ⟨63, last_lt⟩ 0 * _ = 0; rw [e0, Nat.zero_mul]
    | ⟨1, _⟩ => show win0_2.index ⟨63, last_lt⟩ 1 * _ = 0; rw [e1, Nat.zero_mul]
  exact (Memref.read_access_unit_zero (Elt F) main_v0_0 hz' (fun a => by rw [congrFun hz' a]; simp) (lastSum V c)).symm

theorem flushed_sq (t : Fin cfg0.N) (hf : (cfg0.win 3).flush t = true) :
    (dat0 V c).flushed 3 t = ((cfg0.win 3).blk t).view.read (Elt F) (lastSq V c) := by
  have hN : cfg0.N = 64 := N_0
  have h63 : t.val = 63 := by have := (flush0_3 t).mp hf; have := t.isLt; omega
  obtain rfl : t = ⟨63, last_lt⟩ := Fin.ext h63
  show (cfg0.win 3).cut (grid0.coords ⟨63, last_lt⟩) ((dat0 V c).after 3 ⟨63, last_lt⟩) = _
  rw [after0_3]
  obtain ⟨e0, e1, -, -⟩ := sq_window ⟨63, last_lt⟩
  have hz' : (fun a => win0_3.index ⟨63, last_lt⟩ a * main_v0_1.ty.shape.size a) = fun _ => 0 := funext fun a => by
    match a with
    | ⟨0, _⟩ => show win0_3.index ⟨63, last_lt⟩ 0 * _ = 0; rw [e0, Nat.zero_mul]
    | ⟨1, _⟩ => show win0_3.index ⟨63, last_lt⟩ 1 * _ = 0; rw [e1, Nat.zero_mul]
  exact (Memref.read_access_unit_zero (Elt F) main_v0_1 hz' (fun a => by rw [congrFun hz' a]; simp) (lastSq V c)).symm

/-- So each result array ends holding its accumulator after point 63: that point's block covers every index. -/
theorem arr_sum : (dat0 V c).arrAt 2 cfg0.N = lastSum V c :=
  (dat0 V c).arrAt_eq_of_cover 2 (lastSum V c) (flushed_sum V c) fun i =>
    ⟨⟨63, last_lt⟩, (flush0_2 ⟨63, last_lt⟩).mpr rfl, by
      show i ∈ ((View.whole main_v0_0).slice (win0_2.rect ⟨63, last_lt⟩)).set
      rw [View.set_slice_whole, Rect.mem_set_unit]
      intro a
      have h0 : (i 0 : Nat) < 1 := (i 0).isLt
      have h1 : (i 1 : Nat) < 512 := (i 1).isLt
      obtain ⟨e0, e1, s0, s1⟩ := sum_window ⟨63, last_lt⟩
      match a with
      | ⟨0, _⟩ =>
        show win0_2.index ⟨63, last_lt⟩ 0 * win0_2.size 0 ≤ (i 0 : Nat)
          ∧ (i 0 : Nat) < win0_2.index ⟨63, last_lt⟩ 0 * win0_2.size 0 + win0_2.xsize (grid0.coords ⟨63, last_lt⟩) 0
        rw [e0, s0]; omega
      | ⟨1, _⟩ =>
        show win0_2.index ⟨63, last_lt⟩ 1 * win0_2.size 1 ≤ (i 1 : Nat)
          ∧ (i 1 : Nat) < win0_2.index ⟨63, last_lt⟩ 1 * win0_2.size 1 + win0_2.xsize (grid0.coords ⟨63, last_lt⟩) 1
        rw [e1, s1]; omega⟩

theorem arr_sq : (dat0 V c).arrAt 3 cfg0.N = lastSq V c :=
  (dat0 V c).arrAt_eq_of_cover 3 (lastSq V c) (flushed_sq V c) fun i =>
    ⟨⟨63, last_lt⟩, (flush0_3 ⟨63, last_lt⟩).mpr rfl, by
      show i ∈ ((View.whole main_v0_1).slice (win0_3.rect ⟨63, last_lt⟩)).set
      rw [View.set_slice_whole, Rect.mem_set_unit]
      intro a
      have h0 : (i 0 : Nat) < 1 := (i 0).isLt
      have h1 : (i 1 : Nat) < 512 := (i 1).isLt
      obtain ⟨e0, e1, s0, s1⟩ := sq_window ⟨63, last_lt⟩
      match a with
      | ⟨0, _⟩ =>
        show win0_3.index ⟨63, last_lt⟩ 0 * win0_3.size 0 ≤ (i 0 : Nat)
          ∧ (i 0 : Nat) < win0_3.index ⟨63, last_lt⟩ 0 * win0_3.size 0 + win0_3.xsize (grid0.coords ⟨63, last_lt⟩) 0
        rw [e0, s0]; omega
      | ⟨1, _⟩ =>
        show win0_3.index ⟨63, last_lt⟩ 1 * win0_3.size 1 ≤ (i 1 : Nat)
          ∧ (i 1 : Nat) < win0_3.index ⟨63, last_lt⟩ 1 * win0_3.size 1 + win0_3.xsize (grid0.coords ⟨63, last_lt⟩) 1
        rw [e1, s1]; omega⟩

end Arrays

/-! ## The statistics kernel's two results

For any contents of the region's buffers on entry, the first result array holds, at channel ch, the masked sum
Σ x·k over all 32 rows and 4096 positions, and the second the masked second moment Σ (x·k)·x. -/

section Results
variable (V : (c : Dev nD) → (b : Ref sig .tc) → Buf (Elt Ideal) ((c : Thread nD τ).loc b)) (c : Dev nD)

theorem sums_2 : (Gen.dat0 (F := Ideal) V c).arrAt 2 cfg0.N
    = fun j : S1x512.Idx => Cert.MaskedNorm.sumX (V c main_arg0) (V c main_arg1) (j 1) := by
  refine (arr_sum V c).trans (funext fun j => ?_)
  obtain ⟨u, ch, rfl⟩ : ∃ (u : Fin 1) (ch : Fin 512), j = ix2 u ch := ⟨j 0, j 1, eq_ix2 j⟩
  obtain rfl : u = 0 := Subsingleton.elim _ _
  show (outsAt0 V c 63 last_lt).1 (ix2 (0 : Fin 1) ch) = Cert.MaskedNorm.sumX (xs V c) (ks V c) ch
  rw [(running V c ch 63 last_lt (by decide)).1, upTo_last]
  rfl

theorem sums_3 : (Gen.dat0 (F := Ideal) V c).arrAt 3 cfg0.N
    = fun j : S1x512.Idx => Cert.MaskedNorm.sumXX (V c main_arg0) (V c main_arg1) (j 1) := by
  refine (arr_sq V c).trans (funext fun j => ?_)
  obtain ⟨u, ch, rfl⟩ : ∃ (u : Fin 1) (ch : Fin 512), j = ix2 u ch := ⟨j 0, j 1, eq_ix2 j⟩
  obtain rfl : u = 0 := Subsingleton.elim _ _
  show (outsAt0 V c 63 last_lt).2 (ix2 (0 : Fin 1) ch) = Cert.MaskedNorm.sumXX (xs V c) (ks V c) ch
  rw [(running V c ch 63 last_lt (by decide)).2, upTo_last]
  rfl

end Results

end Cert.KernelIdeal.Stats

end
-- ==== Proof.NormValue.lean ====
/-
  The second region of the masked normalisation: what the normalising pass leaves in its output array.

  The pass walks a 4 × 16 grid. At the point (p, q) it reads the block of the data array x holding the batch rows
  8p … 8p + 7, every channel and the positions 256q … 256q + 255, the block of the mask words over the same rows and
  positions, and four whole per-channel rows (a mean, a reciprocal deviation, a scale and a shift), and writes the
  block of the output at the same place. One element of what it writes is
      ((x − mean(ch)) · inv(ch) · k) · w(ch) + β(ch)
  with k the mask word at (row, position) read as the signed integer it encodes: a per-channel row [1, 512] is viewed
  as [1, 512, 1] and repeated over rows and positions, and the mask block [8, 256] is viewed as [8, 1, 256] and repeated
  over the channels. The 64 blocks tile the [32, 512, 4096] array, so after the pass every entry (b, ch, l) of the
  output holds that expression of the entry of x at (b, ch, l), the mask word at (b, l) and the four rows at ch —
  whatever the arrays held when the pass began. Nothing is rearranged here: the value is read, block by block.
-/
import proofs.«172571_j30889404792984_2_alg».proof.Proof.Gen.KernelIdeal.Frame
import proofs.«172571_j30889404792984_2_alg».proof.Proof.Spec
import Idealize.ShloMosaic.Lib.Pipeline.Value
import Idealize.ShloMosaic.Lib.ValueIdx
import Idealize.ShloMosaic.Lib.ValueLayout

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

/-! ## Four layout operations read at an index given by coordinates -/

section Layout
variable {α : Type}

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, c]` row viewed as `[1, c, 1]` reads, at `(u, i, v)`, the operand at `(0, i)`. -/
theorem shapeCast_1c_1c1_apply {c : ℕ} (x : (⟨2, ![1, c]⟩ : Shape).Idx → α)
    (h : (⟨2, ![1, c]⟩ : Shape).ShapeCasts ⟨3, ![1, c, 1]⟩) (u : Fin 1) (i : Fin c) (v : Fin 1) :
    shapeCast ⟨3, ![1, c, 1]⟩ x h (ix3 u i v) = x (ix2 (0 : Fin 1) i) :=
  shapeCast_apply x h _ _ (by
    have hu : u.val = 0 := by omega
    have hv : v.val = 0 := by omega
    rw [Shape.rowMajor_val_three, Shape.rowMajor_val_two]
    show 0 * c + i.val = (u.val * c + i.val) * 1 + v.val
    rw [hu, hv, Nat.mul_one, Nat.add_zero])

/-- An `[a, 1, b]` array repeated along its middle axis to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, 1]` column repeated to `[a, c, b]` reads, at `(i, k, j)`, the operand at `(0, k, 0)`. -/
theorem broadcastTo_1c1_acb_apply {a b c : ℕ} (v : (⟨3, ![1, c, 1]⟩ : Shape).Idx → α)
    (h : (⟨3, ![1, c, 1]⟩ : Shape).Broadcasts ⟨3, ![a, c, b]⟩) (i : Fin a) (k : Fin c) (j : Fin b) :
    broadcastTo ⟨3, ![a, c, b]⟩ v h (ix3 i k j) = v (ix3 (0 : Fin 1) k (0 : Fin 1)) := by
  refine broadcastTo_apply v h (ix3 i k j) (ix3 (0 : Fin 1) k (0 : Fin 1)) fun ax => ?_
  match ax with
  | ⟨0, _⟩ => rfl
  | ⟨1, _⟩ =>
    show k.val = if c = 1 then 0 else k.val
    split
    · have := k.isLt; omega
    · rfl
  | ⟨2, _⟩ => rfl

end Layout

/-! ## One element of what a grid point computes -/

/-- A per-channel row as the pass spreads it over a block: viewed `[1, 512, 1]`, repeated over 8 rows and 256 positions. -/
theorem row_apply (r : Vec Ideal S1x512 .f32) (b : Fin 8) (ch : Fin 512) (l : Fin 256) :
    broadcastTo S8x512x256 (shapeCast S1x512x1 (shapeCast S1x512 r Facts₀.shapeCasts_S1x512_S1x512) Facts₀.shapeCasts_S1x512_S1x512x1)
      Facts₀.broadcasts_S1x512x1_S8x512x256 (ix3 b ch l) = r (ix2 (0 : Fin 1) ch) := by
  rw [broadcastTo_1c1_acb_apply, shapeCast_1c_1c1_apply, shapeCast_self]

/-- The element at (b, ch, l) of the block a grid point stores, from its loaded blocks. -/
theorem pay_apply (v0 : Vec Ideal S8x512x256 .f32) (v1 : Vec Ideal S8x256 .i32) (v6 v9 v12 v15 : Vec Ideal S1x512 .f32)
    (b : Fin 8) (ch : Fin 512) (l : Fin 256) :
    k1_pay1 v0 v1 v6 v9 v12 v15 (ix3 b ch l)
      = ((v0 (ix3 b ch l) - v6 (ix2 (0 : Fin 1) ch)) * v9 (ix2 (0 : Fin 1) ch) * (((v1 (ix2 b l)).toInt : ℝ) : EReal))
          * v12 (ix2 (0 : Fin 1) ch) + v15 (ix2 (0 : Fin 1) ch) := by
  unfold k1_pay1
  rw [addf_apply, mulf_apply, mulf_apply, mulf_apply, subf_apply, row_apply, row_apply, row_apply, row_apply,
    broadcastTo_a1b_acb_apply, shapeCast_self, shapeCast_ab_a1b_apply]
  rfl

/-! ## From the blocks to the array -/

variable (V : (c : Dev nD) → (b : Ref sig .tc) → Buf (Elt Ideal) ((c : Thread nD τ).loc b)) (c : Dev nD)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The normalised array as one function of what the pass finds in its six input arrays. -/
abbrev normed : S32x512x4096.Idx → EReal := fun i =>
  Cert.MaskedNorm.normEntry (V c main_arg0) (V c main_arg1)
    (fun ch => V c main_v5 (ix2 (0 : Fin 1) ch)) (fun ch => V c main_v12 (ix2 (0 : Fin 1) ch))
    (fun ch => V c main_v13 (ix2 (0 : Fin 1) ch)) (fun ch => V c main_v14 (ix2 (0 : Fin 1) ch)) (i 0) (i 1) (i 2)

/-- Where the blocks sit, over the 64 grid points: point t = 16·p + q reads and writes the data block (p, 0, q) and
    reads the mask block (p, q); the four per-channel rows are block (0, 0) at every point. -/
theorem block_places : ∀ t : Fin cfg1.N,
    win1_6.index t (0 : Fin 3) = t.val / 16 ∧ win1_6.index t (1 : Fin 3) = 0 ∧ win1_6.index t (2 : Fin 3) = t.val % 16
    ∧ win1_0.index t (0 : Fin 3) = t.val / 16 ∧ win1_0.index t (1 : Fin 3) = 0 ∧ win1_0.index t (2 : Fin 3) = t.val % 16
    ∧ win1_1.index t (0 : Fin 2) = t.val / 16 ∧ win1_1.index t (1 : Fin 2) = t.val % 16
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The data block at point t holds the rows 8·(t / 16) + b and the positions 256·(t % 16) + l of the data array. -/
theorem data_block (t : Fin cfg1.N) (b : Fin 8) (ch : Fin 512) (l : Fin 256) (B : Fin 32) (L : Fin 4096)
    (hB : B.val = t.val / 16 * 8 + b.val) (hL : L.val = t.val % 16 * 256 + l.val) :
    (iblk1 V c 0 t : Vec Ideal S8x512x256 .f32) (ix3 b ch l) = (V c main_arg0 : S32x512x4096.Idx → EReal) (ix3 B ch L) := by
  obtain ⟨-, -, -, e0, e1, e2, -⟩ := block_places t
  unfold iblk1
  rw [View.read_apply]
  show V c main_arg0 (((cfg1.win 0).blk t).view.emb (ix3 b ch l)) = V c main_arg0 (ix3 B ch L)
  refine congrArg _ (funext fun a => Fin.ext ?_)
  match a with
  | ⟨0, _⟩ => show win1_0.index t (0 : Fin 3) * 8 + 1 * b.val = B.val; rw [e0, hB]; omega
  | ⟨1, _⟩ => show win1_0.index t (1 : Fin 3) * 512 + 1 * ch.val = ch.val; rw [e1]; omega
  | ⟨2, _⟩ => show win1_0.index t (2 : Fin 3) * 256 + 1 * l.val = L.val; rw [e2, hL]; omega

/-- The mask block at point t holds the mask words of the same rows and positions. -/
theorem mask_block (t : Fin cfg1.N) (b : Fin 8) (l : Fin 256) (B : Fin 32) (L : Fin 4096)
    (hB : B.val = t.val / 16 * 8 + b.val) (hL : L.val = t.val % 16 * 256 + l.val) :
    (iblk1 V c 1 t : Vec Ideal S8x256 .i32) (ix2 b l) = (V c main_arg1 : S32x4096.Idx → BitVec 32) (ix2 B L) := by
  obtain ⟨-, -, -, -, -, -, e0, e1, -⟩ := block_places t
  unfold iblk1
  rw [View.read_apply]
  show V c main_arg1 (((cfg1.win 1).blk t).view.emb (ix2 b l)) = V c main_arg1 (ix2 B L)
  refine congrArg _ (funext fun a => Fin.ext ?_)
  match a with
  | ⟨0, _⟩ => show win1_1.index t (0 : Fin 2) * 8 + 1 * b.val = B.val; rw [e0, hB]; omega
  | ⟨1, _⟩ => show win1_1.index t (1 : Fin 2) * 256 + 1 * l.val = L.val; rw [e1, hL]; omega

/-- Each per-channel row's block is the whole row, at every point: the mean, -/
theorem mean_block (t : Fin cfg1.N) (y : S1x512.Idx) :
    (iblk1 V c 2 t : Vec Ideal S1x512 .f32) y = (V c main_v5 : S1x512.Idx → EReal) y := by
  obtain ⟨-, -, -, -, -, -, -, -, e0, e1, -⟩ := block_places t
  unfold iblk1
  rw [View.read_apply]
  show V c main_v5 (((cfg1.win 2).blk t).view.emb y) = V c main_v5 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega

/-- the reciprocal deviation, -/
theorem inv_block (t : Fin cfg1.N) (y : S1x512.Idx) :
    (iblk1 V c 3 t : Vec Ideal S1x512 .f32) y = (V c main_v12 : S1x512.Idx → EReal) y := by
  obtain ⟨-, -, -, -, -, -, -, -, -, -, e0, e1, -⟩ := block_places t
  unfold iblk1
  rw [View.read_apply]
  show V c main_v12 (((cfg1.win 3).blk t).view.emb y) = V c main_v12 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega

/-- the scale, -/
theorem scale_block (t : Fin cfg1.N) (y : S1x512.Idx) :
    (iblk1 V c 4 t : Vec Ideal S1x512 .f32) y = (V c main_v13 : S1x512.Idx → EReal) y := by
  obtain ⟨-, -, -, -, -, -, -, -, -, -, -, -, e0, e1, -⟩ := block_places t
  unfold iblk1
  rw [View.read_apply]
  show V c main_v13 (((cfg1.win 4).blk t).view.emb y) = V c main_v13 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 512 + 1 * (y 1).val = (y 1).val; rw [e1]; omega

/-- and the shift. -/
theorem shift_block (t : Fin cfg1.N) (y : S1x512.Idx) :
    (iblk1 V c 5 t : Vec Ideal S1x512 .f32) y = (V c main_v14 : S1x512.Idx → EReal) y := by
  obtain ⟨-, -, -, -, -, -, -, -, -, -, -, -, -, -, e0, e1⟩ := block_places t
  unfold iblk1
  rw [View.read_apply]
  show V c main_v14 (((cfg1.win 5).blk t).view.emb y) = V c main_v14 y
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 512 + 1 * (y 1).val = (y 1).val; rw [e1]; omega

/-- One element of what point t computes is the normalised array's entry under it: at the block's (b, ch, l) the entry
    (8·(t / 16) + b, ch, 256·(t % 16) + l). -/
theorem entry_eq (t : Fin cfg1.N) (y : S8x512x256.Idx) (i : S32x512x4096.Idx)
    (h0 : (i 0).val = t.val / 16 * 8 + (y 0).val) (h1 : (i 1).val = (y 1).val)
    (h2 : (i 2).val = t.val % 16 * 256 + (y 2).val) :
    k1_pay1 (iblk1 V c 0 t) (iblk1 V c 1 t) (iblk1 V c 2 t) (iblk1 V c 3 t) (iblk1 V c 4 t) (iblk1 V c 5 t) y = normed V c i := by
  obtain ⟨b, ch, l, rfl⟩ : ∃ (b : Fin 8) (ch : Fin 512) (l : Fin 256), y = ix3 b ch l := ⟨y 0, y 1, y 2, eq_ix3 y⟩
  obtain ⟨B, CH, L, rfl⟩ : ∃ (B : Fin 32) (CH : Fin 512) (L : Fin 4096), i = ix3 B CH L := ⟨i 0, i 1, i 2, eq_ix3 i⟩
  obtain rfl : CH = ch := Fin.ext h1
  refine (pay_apply (iblk1 V c 0 t) (iblk1 V c 1 t) (iblk1 V c 2 t) (iblk1 V c 3 t) (iblk1 V c 4 t) (iblk1 V c 5 t) b CH l).trans ?_
  rw [data_block V c t b CH l B L h0 h2, mask_block V c t b l B L h0 h2, mean_block V c t, inv_block V c t,
    scale_block V c t, shift_block V c t]
  rfl

/-- What point t writes back is block t of the normalised array. -/
theorem flushed_eq (t : Fin cfg1.N) :
    (dat1 (F := Ideal) V c).flushed 6 t = ((cfg1.win 6).blk t).view.read (Elt Ideal) (normed V c) := by
  show (cfg1.win 6).cut (grid1.coords t) ((dat1 V c).after 6 t) = _
  rw [after1_6]
  unfold out1_6
  rw [View.canon_unit_zero zeros3]
  simp only [View.ld_unit_zero (S := S8x512x256) zeros3, View.ld_unit_zero (S := S8x256) zeros2,
    View.ld_unit_zero (S := S1x512) zeros2]
  obtain ⟨e0, e1, e2, -⟩ := block_places t
  funext j
  rw [View.read_apply]
  show k1_pay1 (iblk1 V c 0 t) (iblk1 V c 1 t) (iblk1 V c 2 t) (iblk1 V c 3 t) (iblk1 V c 4 t) (iblk1 V c 5 t)
      (win1_6.xinj (grid1.coords t) j) = normed V c (((cfg1.win 6).blk t).view.emb j)
  refine entry_eq V c t _ _ ?_ ?_ ?_
  · show win1_6.index t (0 : Fin 3) * 8 + 1 * (j 0).val = t.val / 16 * 8 + (j 0).val; rw [e0]; omega
  · show win1_6.index t (1 : Fin 3) * 512 + 1 * (j 1).val = (j 1).val; rw [e1]; omega
  · show win1_6.index t (2 : Fin 3) * 256 + 1 * (j 2).val = t.val % 16 * 256 + (j 2).val; rw [e2]; omega

/-- An entry of the array is under point t's block when each coordinate is in the block's range on its axis. -/
theorem mem_blk (t : Fin cfg1.N) (i : S32x512x4096.Idx) :
    i ∈ ((cfg1.win 6).blk t).view.set ↔ ∀ a : Fin 3, win1_6.index t a * S8x512x256.size a ≤ (i a).val
      ∧ (i a).val < win1_6.index t a * S8x512x256.size a + S8x512x256.size a := by
  show i ∈ ((View.whole main_v15).slice (win1_6.rect t)).set ↔ _
  rw [View.set_slice_whole, Rect.mem_set_unit]
  exact Iff.rfl

/-- The 64 blocks tile the array: the entry (b, ch, l) is under the block of point 16·(b / 8) + l / 256. -/
theorem covered (i : S32x512x4096.Idx) :
    ∃ t : Fin cfg1.N, (cfg1.win 6).flush t = true ∧ i ∈ ((cfg1.win 6).blk t).view.set := by
  have hi0 : (i 0).val < 32 := (i 0).isLt
  have hi1 : (i 1).val < 512 := (i 1).isLt
  have hi2 : (i 2).val < 4096 := (i 2).isLt
  have hN : cfg1.N = 64 := N_1
  obtain ⟨t, ht⟩ : ∃ t : Fin cfg1.N, t.val = (i 0).val / 8 * 16 + (i 2).val / 256 :=
    ⟨⟨(i 0).val / 8 * 16 + (i 2).val / 256, by rw [hN]; omega⟩, rfl⟩
  obtain ⟨e0, e1, e2, -⟩ := block_places t
  refine ⟨t, flush1_6 t, ?_⟩
  rw [mem_blk]
  intro a
  match a with
  | ⟨0, _⟩ =>
    show win1_6.index t (0 : Fin 3) * 8 ≤ (i 0).val ∧ (i 0).val < win1_6.index t (0 : Fin 3) * 8 + 8
    rw [e0, ht]; omega
  | ⟨1, _⟩ =>
    show win1_6.index t (1 : Fin 3) * 512 ≤ (i 1).val ∧ (i 1).val < win1_6.index t (1 : Fin 3) * 512 + 512
    rw [e1]; omega
  | ⟨2, _⟩ =>
    show win1_6.index t (2 : Fin 3) * 256 ≤ (i 2).val ∧ (i 2).val < win1_6.index t (2 : Fin 3) * 256 + 256
    rw [e2, ht]; omega

/-- THE OUTPUT ARRAY after the pass, whatever the arrays held when it began: entry by entry the masked
    normalisation of the data array by the mask and the four per-channel rows the pass was given. -/
theorem out_6 : (Gen.dat1 (F := Ideal) V c).arrAt 6 cfg1.N = fun i =>
      Cert.MaskedNorm.normEntry (V c main_arg0) (V c main_arg1)
        (fun ch => V c main_v5 (ix2 (0 : Fin 1) ch)) (fun ch => V c main_v12 (ix2 (0 : Fin 1) ch))
        (fun ch => V c main_v13 (ix2 (0 : Fin 1) ch)) (fun ch => V c main_v14 (ix2 (0 : Fin 1) ch)) (i 0) (i 1) (i 2) :=
  (dat1 V c).arrAt_eq_of_cover 6 (normed V c) (fun t _ => flushed_eq V c t) (covered)

end Cert.KernelIdeal.Norm

end
-- ==== Proof.lean ====
/-
  Masked batch normalisation: a two-pass kernel program against its one-pass-per-statistic reference.

  Both programs take a data array x of shape [32, 512, 4096], an integer mask k of shape [32, 4096], a scale w and a
  shift β of shape [512], and return, at (b, ch, l),
      ((x − mean(ch)) · rsqrt(var(ch) + ε) · k(b, l)) · w(ch) + β(ch),
  with mean(ch) = (Σ x·k) / n over the positions (b, l) of channel ch and n = max(count, 1).

  The kernel program runs a statistics kernel over a 4 × 16 grid of [8, 512, 256] blocks that accumulates the two
  rows Σ x·k and Σ (x·k)·x, then forms on the host n from the mask words summed as 32-bit integers, the mean, and the
  variance as second moment minus squared mean, and a second kernel normalises block by block. The reference forms n
  from the sum of the converted mask words and the variance as the mean of the squared masked deviations from the mean.

  The two agree, as extended reals, when every data entry is a real number and every mask word is 0 or 1: then k·k = k,
  the integer sum of at most 131072 zeros and ones does not wrap, n ≥ 1 is a nonzero real, and
      Σ ((x − μ)·k)² = Σ (x·k)·x − 2μ·Σ x·k + μ²·Σ k = Σ (x·k)·x − μ²·n     (μ = (Σ x·k)/n; both sides 0 when Σ k = 0),
  an identity of real arithmetic. The scale and the shift enter both results in the same way and may be infinite.
  The precondition supplies exactly the two hypotheses: the float inputs finite, the mask words in {0, 1}.

  The modules: Spec (the two forms, entry by entry), Moments (the identity), PreWords (the precondition read back, and
  the integer count), RefStages (the reference's operations read one at a time: it is the squared-deviation form),
  StatsValue and NormValue (what each kernel region leaves in its output arrays), KernelRun (the kernel program's run
  with its result named), HostMid (the host operations between the regions, read at a channel), KernelValue (the
  kernel program's result is the squared-deviation form of its arguments). Below, the five claims.
-/
import proofs.«172571_j30889404792984_2_alg».proof.Defs
import proofs.«172571_j30889404792984_2_alg».proof.Proof.Gen.Kernel
import proofs.«172571_j30889404792984_2_alg».proof.Proof.Gen.Kernel.Skeleton
import proofs.«172571_j30889404792984_2_alg».proof.Proof.Gen.Kernel.Launch
import proofs.«172571_j30889404792984_2_alg».proof.Proof.Gen.Kernel.Points
import proofs.«172571_j30889404792984_2_alg».proof.Proof.Gen.Kernel.Frame
import proofs.«172571_j30889404792984_2_alg».proof.Proof.Gen.KernelIdeal
import proofs.«172571_j30889404792984_2_alg».proof.Proof.Gen.KernelIdeal.Skeleton
import proofs.«172571_j30889404792984_2_alg».proof.Proof.Gen.KernelIdeal.Launch
import proofs.«172571_j30889404792984_2_alg».proof.Proof.Gen.KernelIdeal.Points
import proofs.«172571_j30889404792984_2_alg».proof.Proof.Gen.KernelIdeal.Frame
import proofs.«172571_j30889404792984_2_alg».proof.Proof.Gen.ReferenceIdeal
import proofs.«172571_j30889404792984_2_alg».proof.Proof.Gen.ReferenceIdeal.Run
import proofs.«172571_j30889404792984_2_alg».proof.Proof.Gen.ReferenceIdeal.Read
import proofs.«172571_j30889404792984_2_alg».proof.Proof.Gen.Pre_finite_inputs
import proofs.«172571_j30889404792984_2_alg».proof.Proof.KernelValue
import proofs.«172571_j30889404792984_2_alg».proof.Proof.RefStages
import proofs.«172571_j30889404792984_2_alg».proof.Proof.PreWords
import proofs.«172571_j30889404792984_2_alg».proof.Proof.StatsValue
import proofs.«172571_j30889404792984_2_alg».proof.Proof.NormValue
import Idealize.ShloMosaic.Adequacy
import Idealize.ShloMosaic.Init

noncomputable section

namespace Cert.Proof

open Idealize.ShloMosaic Idealize.SL.Sem Idealize.ShloMosaic.ValueIdx

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- From memories agreeing on the four arguments both idealized programs end with the result array at
    `refOut` of the arguments: the kernel program by its two regions' values and the host stretch between
    them, joined to the squared-deviation form by the variance identity (the data are real and the mask
    words are zero or one by the precondition); the reference by reading its operations one at a time. -/
theorem algebraic : Cert.algebraic_KernelIdeal_ReferenceIdeal := by
  intro m ρ m' ρ' hpre hagree
  refine ⟨fun c => Cert.MaskedNorm.refOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.RunValue.run_value (F := Ideal) m ρ)
    have hk := fun j => Cert.PreWords.mask01_of_pre m hpre c j
    exact Cert.KernelIdeal.KernelValue.result_eq m ρ c
      (Cert.KernelIdeal.Stats.sums_2 (Cert.KernelIdeal.Gen.V0 m ρ) c)
      (Cert.KernelIdeal.Stats.sums_3 (Cert.KernelIdeal.Gen.V0 m ρ) c)
      (Cert.KernelIdeal.Norm.out_6 (Cert.KernelIdeal.Gen.V2 m ρ) c)
      (fun i => Cert.PreWords.real_of_pre m hpre c i) hk
      (Cert.PreWords.count_words _ hk _ _ ix0)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v32_eq, Cert.RefStages.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
